-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x32 : Shape := ⟨2, ![128, 32]⟩
abbrev S32x32 : Shape := ⟨2, ![32, 32]⟩
abbrev S32x16 : Shape := ⟨2, ![32, 16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x32 : S_.BroadcastsInDim S128x32 (![] : Fin 0 → Fin S128x32.rank)
  reducesTo_S128x32_S_d0_1 : S128x32.ReducesTo [0, 1] S_
  bcast_S_S32x32 : S_.BroadcastsInDim S32x32 (![] : Fin 0 → Fin S32x32.rank)
  reducesTo_S32x32_S_d0_1 : S32x32.ReducesTo [0, 1] S_
  bcast_S_S32x16 : S_.BroadcastsInDim S32x16 (![] : Fin 0 → Fin S32x16.rank)
  reducesTo_S32x16_S_d0_1 : S32x16.ReducesTo [0, 1] S_

variable [Facts]

def fn_part1 {F : FTy → Type} [FloatOps F] (main_arg4 : FVec F S32x16 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32x16 .f32 := Host.absf main_arg4
  let main_cst_6 : FVec F S_ .f32 := constant S_ .f32 0x7F800000#32
  let main_v20 : FVec F S32x16 .f32 := broadcastInDim S32x16 ![] bcast_S_S32x16 main_cst_6
  let main_v21 : IVec S32x16 1 := cmpf .olt main_v19 main_v20
  let main_c_7 : IVec S_ 1 := constantI S_ 1 1#1
  let main_v22 : IVec S_ 1 := (fun x v => Host.reduce IntOp.andi x v reducesTo_S32x16_S_d0_1 h_S_) main_v21 main_c_7
  let main_v23 : IVec S_ 1 := andi main_v18 main_v22
  main_v23

def fn {F : FTy → Type} [FloatOps F] (main_arg0 : FVec F S10000x128 .f32) (main_arg1 : FVec F S10000x10000 .f32) (main_arg2 : FVec F S128x32 .f32) (main_arg3 : FVec F S32x32 .f32) (main_arg4 : FVec F S32x16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x32 .f32 := Host.absf main_arg2
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S32x32 .f32 := Host.absf main_arg3
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg4 main_v13 main_v16
-- ==== Kernel.lean ====
abbrev S10000x128 : Shape := ⟨2, ![10000, 128]⟩
abbrev S10000x10000 : Shape := ⟨2, ![10000, 10000]⟩
abbrev S128x32 : Shape := ⟨2, ![128, 32]⟩
abbrev S32x32 : Shape := ⟨2, ![32, 32]⟩
abbrev S32x16 : Shape := ⟨2, ![32, 16]⟩
abbrev S10000x32 : Shape := ⟨2, ![10000, 32]⟩
abbrev S10000x16 : Shape := ⟨2, ![10000, 16]⟩
abbrev S400x10000 : Shape := ⟨2, ![400, 10000]⟩
abbrev S400x32 : Shape := ⟨2, ![400, 32]⟩
abbrev S400x16 : Shape := ⟨2, ![400, 16]⟩

abbrev nBuf : Space → Nat
  | .hbm => 11
  | .vmem => 17
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x32, .f32⟩
  | .hbm, ⟨3, _⟩ => ⟨S32x32, .f32⟩
  | .hbm, ⟨4, _⟩ => ⟨S32x16, .f32⟩
  | .hbm, ⟨5, _⟩ => ⟨S10000x32, .bf16⟩
  | .hbm, ⟨6, _⟩ => ⟨S32x32, .bf16⟩
  | .hbm, ⟨7, _⟩ => ⟨S10000x32, .bf16⟩
  | .hbm, ⟨8, _⟩ => ⟨S32x16, .bf16⟩
  | .hbm, ⟨9, _⟩ => ⟨S10000x32, .f32⟩
  | .hbm, ⟨10, _⟩ => ⟨S10000x16, .f32⟩
  | .local _ .vmem, ⟨0, _⟩ => ⟨S10000x128, .f32⟩
  | .local _ .vmem, ⟨1, _⟩ => ⟨S128x32, .f32⟩
  | .local _ .vmem, ⟨2, _⟩ => ⟨S10000x32, .bf16⟩
  | .local _ .vmem, ⟨3, _⟩ => ⟨S400x10000, .f32⟩
  | .local _ .vmem, ⟨4, _⟩ => ⟨S400x10000, .f32⟩
  | .local _ .vmem, ⟨5, _⟩ => ⟨S10000x32, .bf16⟩
  | .local _ .vmem, ⟨6, _⟩ => ⟨S32x32, .bf16⟩
  | .local _ .vmem, ⟨7, _⟩ => ⟨S400x32, .bf16⟩
  | .local _ .vmem, ⟨8, _⟩ => ⟨S400x32, .bf16⟩
  | .local _ .vmem, ⟨9, _⟩ => ⟨S400x10000, .f32⟩
  | .local _ .vmem, ⟨10, _⟩ => ⟨S400x10000, .f32⟩
  | .local _ .vmem, ⟨11, _⟩ => ⟨S10000x32, .bf16⟩
  | .local _ .vmem, ⟨12, _⟩ => ⟨S32x16, .bf16⟩
  | .local _ .vmem, ⟨13, _⟩ => ⟨S400x32, .f32⟩
  | .local _ .vmem, ⟨14, _⟩ => ⟨S400x32, .f32⟩
  | .local _ .vmem, ⟨15, _⟩ => ⟨S400x16, .f32⟩
  | .local _ .vmem, ⟨16, _⟩ => ⟨S400x16, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_v0_1 : Ref sig .tc := ⟨.hbm, 9, rfl⟩
abbrev main_v0_0 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg3_1 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg3_1 : Ref sig .tc := ⟨.vmem, 14, rfl⟩
abbrev cc2_stg4_0 : Ref sig .tc := ⟨.vmem, 15, rfl⟩
abbrev cc2_stg4_1 : Ref sig .tc := ⟨.vmem, 16, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem3_1 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem3_0 : DmaSem sig := 13
abbrev cc2_sem3_1 : DmaSem sig := 14
abbrev cc2_sem4_0 : DmaSem sig := 15
abbrev cc2_sem4_1 : DmaSem sig := 16

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x32 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x32 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x32 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S400x32 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x32 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S32x16 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S400x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S400x16 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  inb_S128x32_S128x32_0_0 : ∀ a, (![0, 0] : Fin 2 → Nat) a + S128x32.size a ≤ S128x32.size a
  h_S128x32 : 0 < S128x32.numel
  inb_S10000x32_S10000x32_0_0 : ∀ a, (![0, 0] : Fin 2 → Nat) a + S10000x32.size a ≤ S10000x32.size a
  h_S10000x32 : 0 < S10000x32.numel
  packedbf16_S10000x32_S10000x32_0_0 : (Rect.unit (s := S10000x32) ![0, 0] S10000x32.size inb_S10000x32_S10000x32_0_0).PackedRows (EltTy.packing .bf16)
  inb_S400x10000_S400x10000_0_0 : ∀ a, (![0, 0] : Fin 2 → Nat) a + S400x10000.size a ≤ S400x10000.size a
  h_S400x10000 : 0 < S400x10000.numel
  shapeCasts_S10000x32_S10000x32 : S10000x32.ShapeCasts S10000x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S400x32_S400x32_0_0 : ∀ a, (![0, 0] : Fin 2 → Nat) a + S400x32.size a ≤ S400x32.size a
  h_S400x32 : 0 < S400x32.numel
  packedbf16_S400x32_S400x32_0_0 : (Rect.unit (s := S400x32) ![0, 0] S400x32.size inb_S400x32_S400x32_0_0).PackedRows (EltTy.packing .bf16)
  inb_S32x16_S32x16_0_0 : ∀ a, (![0, 0] : Fin 2 → Nat) a + S32x16.size a ≤ S32x16.size a
  h_S32x16 : 0 < S32x16.numel
  shapeCasts_S32x16_S32x16 : S32x16.ShapeCasts S32x16
  inb_S400x16_S400x16_0_0 : ∀ a, (![0, 0] : Fin 2 → Nat) a + S400x16.size a ≤ S400x16.size a
  h_S400x16 : 0 < S400x16.numel
  dot_S10000x128_S128x32_S10000x32_1_0_0_1_n_n_wf : DotDims.WF S10000x128 S128x32 S10000x32 [1] [0] [0] [1] [] []
  dot_S400x10000_S10000x32_S400x32_1_0_0_1_n_n_wf : DotDims.WF S400x10000 S10000x32 S400x32 [1] [0] [0] [1] [] []
  dot_S400x32_S32x32_S400x32_1_0_0_1_n_n_wf : DotDims.WF S400x32 S32x32 S400x32 [1] [0] [0] [1] [] []
  dot_S400x32_S32x16_S400x16_1_0_0_1_n_n_wf : DotDims.WF S400x32 S32x16 S400x16 [1] [0] [0] [1] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x32.size a ≤ S10000x32.size a
  hwx1_1 : ∀ i : grid1.Coords, EltTy.bits .bf16 = 32 ∨ (Rect.block (s := S10000x32) S10000x32.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x32.size a ≤ S32x32.size a
  hwx1_2 : ∀ i : grid1.Coords, EltTy.bits .bf16 = 32 ∨ (Rect.block (s := S32x32) S32x32.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x32.size a ≤ S10000x32.size a
  hwx1_3 : ∀ i : grid1.Coords, EltTy.bits .bf16 = 32 ∨ (Rect.block (s := S10000x32) S400x32.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x32.size a ≤ S10000x32.size a
  hwx2_1 : ∀ i : grid2.Coords, EltTy.bits .bf16 = 32 ∨ (Rect.block (s := S10000x32) S10000x32.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x16.size a ≤ S32x16.size a
  hwx2_2 : ∀ i : grid2.Coords, EltTy.bits .bf16 = 32 ∨ (Rect.block (s := S32x16) S32x16.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x32.size a ≤ S10000x32.size a
  hwx2_3 : ∀ i : grid2.Coords, EltTy.bits .f32 = 32 ∨ (Rect.block (s := S10000x32) S400x32.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S400x16.size a ≤ S10000x16.size a
  hwx2_4 : ∀ i : grid2.Coords, EltTy.bits .f32 = 32 ∨ (Rect.block (s := S10000x16) S400x16.size (cc2_transform_4 i) (hinb2_4 i)).WholeWords (EltTy.packing .f32)

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S400x10000_S10000x32_S400x32_1_0_0_1_n_n : DotDims S400x10000 S10000x32 S400x32 where
  lhsContracting := [1]
  rhsContracting := [0]
  lhsNonContracting := [0]
  rhsNonContracting := [1]
  lhsBatch := []
  rhsBatch := []
  wf := dot_S400x10000_S10000x32_S400x32_1_0_0_1_n_n_wf
def dot_S400x32_S32x32_S400x32_1_0_0_1_n_n : DotDims S400x32 S32x32 S400x32 where
  lhsContracting := [1]
  rhsContracting := [0]
  lhsNonContracting := [0]
  rhsNonContracting := [1]
  lhsBatch := []
  rhsBatch := []
  wf := dot_S400x32_S32x32_S400x32_1_0_0_1_n_n_wf
def dot_S400x32_S32x16_S400x16_1_0_0_1_n_n : DotDims S400x32 S32x16 S400x16 where
  lhsContracting := [1]
  rhsContracting := [0]
  lhsNonContracting := [0]
  rhsNonContracting := [1]
  lhsBatch := []
  rhsBatch := []
  wf := dot_S400x32_S32x16_S400x16_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_call0_v0) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v0) S10000x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v1) S32x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v2) S400x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v2) S10000x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v3) S32x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v0_1) S400x32.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v0_0) S400x16.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x32 : Shape := ⟨2, ![128, 32]⟩
abbrev S32x32 : Shape := ⟨2, ![32, 32]⟩
abbrev S32x16 : Shape := ⟨2, ![32, 16]⟩
abbrev S10000x32 : Shape := ⟨2, ![10000, 32]⟩
abbrev S_ : Shape := ⟨0, ![]⟩
abbrev S10000x16 : Shape := ⟨2, ![10000, 16]⟩

abbrev nBuf : Space → Nat
  | .hbm => 26
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x32, .f32⟩
  | .hbm, ⟨3, _⟩ => ⟨S32x32, .f32⟩
  | .hbm, ⟨4, _⟩ => ⟨S32x16, .f32⟩
  | .hbm, ⟨5, _⟩ => ⟨S10000x32, .f32⟩
  | .hbm, ⟨6, _⟩ => ⟨S10000x32, .f32⟩
  | .hbm, ⟨7, _⟩ => ⟨S_, .f32⟩
  | .hbm, ⟨8, _⟩ => ⟨S_, .f32⟩
  | .hbm, ⟨9, _⟩ => ⟨S10000x32, .f32⟩
  | .hbm, ⟨10, _⟩ => ⟨S10000x32, .i1⟩
  | .hbm, ⟨11, _⟩ => ⟨S_, .f32⟩
  | .hbm, ⟨12, _⟩ => ⟨S10000x32, .f32⟩
  | .hbm, ⟨13, _⟩ => ⟨S10000x32, .f32⟩
  | .hbm, ⟨14, _⟩ => ⟨S10000x32, .f32⟩
  | .hbm, ⟨15, _⟩ => ⟨S10000x32, .f32⟩
  | .hbm, ⟨16, _⟩ => ⟨S10000x32, .f32⟩
  | .hbm, ⟨17, _⟩ => ⟨S10000x16, .f32⟩
  | .hbm, ⟨18, _⟩ => ⟨S10000x16, .f32⟩
  | .hbm, ⟨19, _⟩ => ⟨S10000x16, .f32⟩
  | .hbm, ⟨20, _⟩ => ⟨S_, .f32⟩
  | .hbm, ⟨21, _⟩ => ⟨S10000x16, .f32⟩
  | .hbm, ⟨22, _⟩ => ⟨S10000x16, .f32⟩
  | .hbm, ⟨23, _⟩ => ⟨S_, .f32⟩
  | .hbm, ⟨24, _⟩ => ⟨S10000x16, .f32⟩
  | .hbm, ⟨25, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_call0_cst : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩

abbrev nD : Nat := 1
abbrev τ : Topo := Topo.v7x

variable {F : FTy → Type} [FloatOps F]

class Facts₀ : Prop where
  bcast_S_S10000x32 : S_.BroadcastsInDim S10000x32 (![] : Fin 0 → Fin S10000x32.rank)
  bcast_S_S10000x16 : S_.BroadcastsInDim S10000x16 (![] : Fin 0 → Fin S10000x16.rank)
  dot_S10000x128_S128x32_S10000x32_1_0_0_1_n_n_wf : DotDims.WF S10000x128 S128x32 S10000x32 [1] [0] [0] [1] [] []
  dot_S10000x10000_S10000x32_S10000x32_1_0_0_1_n_n_wf : DotDims.WF S10000x10000 S10000x32 S10000x32 [1] [0] [0] [1] [] []
  dot_S10000x32_S32x32_S10000x32_1_0_0_1_n_n_wf : DotDims.WF S10000x32 S32x32 S10000x32 [1] [0] [0] [1] [] []
  dot_S10000x32_S32x16_S10000x16_1_0_0_1_n_n_wf : DotDims.WF S10000x32 S32x16 S10000x16 [1] [0] [0] [1] [] []

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S10000x10000_S10000x32_S10000x32_1_0_0_1_n_n : DotDims S10000x10000 S10000x32 S10000x32 where
  lhsContracting := [1]
  rhsContracting := [0]
  lhsNonContracting := [0]
  rhsNonContracting := [1]
  lhsBatch := []
  rhsBatch := []
  wf := dot_S10000x10000_S10000x32_S10000x32_1_0_0_1_n_n_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf

class Facts : Prop extends Facts₀ where

variable [Facts]
-- ==== Proof.KRun.lean ====
/-
  The idealized kernel's run with its two results named.

  @main is three pipelined regions separated by two host conversions. Every weakly fair execution from any memory with
  zero counters terminates without a fault, and in every final state every buffer that outlives the regions holds the
  contents at the last segment boundary: the launch, the segments and the reading of the last thread state against the
  final state are those of the frame, whose postcondition keeps only the arguments; here the postcondition keeps the
  whole reading (`run_boundary`). From it: each of the two result buffers holds what the last region's write-backs
  leave there, and the five argument arrays are as launched (`run_results`).
-/
import proofs.«163603_g69458211110958_cont_9to1c4b_477_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement, and that
-- unification has to unfold plain definitions inside a metavariable's type
set_option backward.isDefEq.respectTransparency.types false in
/-- Every weakly fair execution of @main ends with every unscoped buffer at the last boundary's contents. -/
theorem run_boundary : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- Every weakly fair execution of @main ends with the two result buffers at the last boundary's contents and the five
    arguments as launched: the results and the arguments are unscoped buffers, and no region or host operation writes
    an argument. -/
theorem run_results : θ_run defs (onTc (τ := τ) (main (F := F))) ⟨m, fun _ => 0, ρ⟩ (fun r => ∀ c : Dev nD,
      r.2.mem ((c.tc : Thread nD τ).loc main_v0_0) = W5 m ρ c (Proc.devRef .tc main_v0_0)
      ∧ r.2.mem ((c.tc : Thread nD τ).loc main_v0_1) = W5 m ρ c (Proc.devRef .tc main_v0_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
      ⟨h c _ (mem_uc main_v0_0 (by decide)),
       h c _ (mem_uc main_v0_1 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)
    (run_boundary m ρ)

end Cert.KernelIdeal.Run

end
-- ==== Proof.LibDenseBlock.lean ====
/-
  A weight matrix times a block, read at an index.

  A `tpu.matmul` of a `[K, N]` left operand with an `[N, Q]` right operand, contracting the left's second axis with the
  right's first, into a zero accumulator: over the extended reals entry `(k, q)` of the result is the plain sum
  `Σ n, l (k, n) * r (n, q)`.
-/
import Idealize.ShloMosaic.Lib.ValueIdx
import Idealize.ShloMosaic.PureOps.Ideal.Laws

noncomputable section

namespace Idealize.ShloMosaic.DenseBlock

open Idealize.ShloMosaic Idealize.ShloMosaic.ValueIdx

/-- The dimension numbers of `[K, N] · [N, Q] → [K, Q]`. -/
abbrev mmDims (K N Q : Nat)
    (wf : DotDims.WF ⟨2, ![K, N]⟩ ⟨2, ![N, Q]⟩ ⟨2, ![K, Q]⟩ [1] [0] [0] [1] [] []) :
    DotDims ⟨2, ![K, N]⟩ ⟨2, ![N, Q]⟩ ⟨2, ![K, Q]⟩ where
  lhsContracting := [1]
  rhsContracting := [0]
  lhsNonContracting := [0]
  rhsNonContracting := [1]
  lhsBatch := []
  rhsBatch := []
  wf := wf

section
variable {K N Q : Nat} (wf : DotDims.WF ⟨2, ![K, N]⟩ ⟨2, ![N, Q]⟩ ⟨2, ![K, Q]⟩ [1] [0] [0] [1] [] [])

/-- The left operand's row is the result's row. -/
theorem lhs_row (j : (⟨2, ![K, Q]⟩ : Shape).Idx) (c : (mmDims K N Q wf).contr.Idx) :
    ((mmDims K N Q wf).lhsIdx j c (0 : Fin 2)).val = (j 0).val := by
  unfold DotDims.lhsIdx
  rw [dif_neg (show ¬ (0 : Fin 2) ∈ (mmDims K N Q wf).lhsBatch from List.not_mem_nil),
    dif_pos (show (0 : Fin 2) ∈ (mmDims K N Q wf).lhsNonContracting from List.mem_singleton.mpr rfl)]
  rfl

/-- The left operand's column is the contraction position. -/
theorem lhs_col (j : (⟨2, ![K, Q]⟩ : Shape).Idx) (c : (mmDims K N Q wf).contr.Idx) :
    ((mmDims K N Q wf).lhsIdx j c (1 : Fin 2)).val = (c ⟨0, Nat.one_pos⟩).val :=
  (mmDims K N Q wf).lhsIdx_val_of_single rfl j c

/-- The right operand's row is the contraction position. -/
theorem rhs_row (j : (⟨2, ![K, Q]⟩ : Shape).Idx) (c : (mmDims K N Q wf).contr.Idx) :
    ((mmDims K N Q wf).rhsIdx j c (0 : Fin 2)).val = (c ⟨0, Nat.one_pos⟩).val :=
  (mmDims K N Q wf).rhsIdx_val_of_single rfl j c

/-- The right operand's column is the result's column. -/
theorem rhs_col (j : (⟨2, ![K, Q]⟩ : Shape).Idx) (c : (mmDims K N Q wf).contr.Idx) :
    ((mmDims K N Q wf).rhsIdx j c (1 : Fin 2)).val = (j 1).val := by
  unfold DotDims.rhsIdx
  rw [dif_neg (show ¬ (1 : Fin 2) ∈ (mmDims K N Q wf).rhsBatch from List.not_mem_nil),
    dif_pos (show (1 : Fin 2) ∈ (mmDims K N Q wf).rhsNonContracting from List.mem_singleton.mpr rfl)]
  rfl

/-- Entry `(k, q)` of the product into a zero accumulator is `Σ n, l (k, n) * r (n, q)`. -/
theorem matmul_zero_apply {φ₁ φ₂ : FTy} (l : FVec Ideal ⟨2, ![K, N]⟩ φ₁) (r : FVec Ideal ⟨2, ![N, Q]⟩ φ₂)
    (k : Fin K) (q : Fin Q) :
    FloatOps.matmul (mmDims K N Q wf) none l r (constant ⟨2, ![K, Q]⟩ .f32 0x00000000#32) (ix2 k q)
      = ∑ n : Fin N, l (ix2 k n) * r (ix2 n q) := by
  rw [Ideal.matmul_constant_zero_apply, ← Equiv.sum_comp (contrEquiv1 (mmDims K N Q wf) N rfl rfl).symm]
  refine Finset.sum_congr rfl fun n _ => ?_
  have hn := contrEquiv1_symm_val (mmDims K N Q wf) N rfl rfl n
  have el : (mmDims K N Q wf).lhsIdx (ix2 k q) ((contrEquiv1 (mmDims K N Q wf) N rfl rfl).symm n) = ix2 k n :=
    funext fun a => Fin.ext (by
      match a with
      | ⟨0, _⟩ => exact lhs_row wf _ _
      | ⟨1, _⟩ => exact (lhs_col wf _ _).trans hn)
  have er : (mmDims K N Q wf).rhsIdx (ix2 k q) ((contrEquiv1 (mmDims K N Q wf) N rfl rfl).symm n) = ix2 n q :=
    funext fun a => Fin.ext (by
      match a with
      | ⟨0, _⟩ => exact (rhs_row wf _ _).trans hn
      | ⟨1, _⟩ => exact rhs_col wf _ _)
  rw [el, er]

end

end Idealize.ShloMosaic.DenseBlock

end
-- ==== Proof.LibDenseHost.lean ====
/-
  The host's matrix product, read at an index.

  A `dot_general` of a `[K, N]` left operand with an `[N, Q]` right operand, contracting the left's second axis with
  the right's first: over the extended reals entry `(k, q)` of the result is the plain sum `Σ n, l (k, n) * r (n, q)`,
  whatever the schedule — the same sum a matrix unit accumulates into zero, so a product computed block of rows by
  block of rows and a product computed whole agree entry by entry.
-/
import proofs.«163603_g69458211110958_cont_9to1c4b_477_2_alg».proof.Proof.LibDenseBlock

noncomputable section

namespace Idealize.ShloMosaic.DenseBlock

open Idealize.ShloMosaic Idealize.ShloMosaic.ValueIdx

variable {K N Q : Nat} (wf : DotDims.WF ⟨2, ![K, N]⟩ ⟨2, ![N, Q]⟩ ⟨2, ![K, Q]⟩ [1] [0] [0] [1] [] [])

/-- Entry `(k, q)` of the host's product is `Σ n, l (k, n) * r (n, q)`. -/
theorem dotGeneral_apply_ix2 {φ₁ φ₂ : FTy} (sched : HostSchedule) (l : FVec Ideal ⟨2, ![K, N]⟩ φ₁)
    (r : FVec Ideal ⟨2, ![N, Q]⟩ φ₂) (k : Fin K) (q : Fin Q) :
    FloatOps.dotGeneral (mmDims K N Q wf) none sched l r (ix2 k q) = ∑ n : Fin N, l (ix2 k n) * r (ix2 n q) := by
  rw [Ideal.dotGeneral_apply, ← Equiv.sum_comp (contrEquiv1 (mmDims K N Q wf) N rfl rfl).symm]
  refine Finset.sum_congr rfl fun n _ => ?_
  have hn := contrEquiv1_symm_val (mmDims K N Q wf) N rfl rfl n
  have el : (mmDims K N Q wf).lhsIdx (ix2 k q) ((contrEquiv1 (mmDims K N Q wf) N rfl rfl).symm n) = ix2 k n :=
    funext fun a => Fin.ext (by
      match a with
      | ⟨0, _⟩ => exact lhs_row wf _ _
      | ⟨1, _⟩ => exact (lhs_col wf _ _).trans hn)
  have er : (mmDims K N Q wf).rhsIdx (ix2 k q) ((contrEquiv1 (mmDims K N Q wf) N rfl rfl).symm n) = ix2 n q :=
    funext fun a => Fin.ext (by
      match a with
      | ⟨0, _⟩ => exact (rhs_row wf _ _).trans hn
      | ⟨1, _⟩ => exact rhs_col wf _ _)
  rw [el, er]

end Idealize.ShloMosaic.DenseBlock

end
-- ==== Proof.RowBlockMath.lean ====
/-
  The two facts over the extended reals that join a row-blocked graph convolution to the whole one.

  * A product computed on a block of rows is that block of rows of the whole product: if row `p` of a block `l` is row
    `P` of a matrix `L`, and the right operands agree entry by entry, then entry `(p, q)` of the matrix unit's product
    of `l` into a zero accumulator is entry `(P, q)` of the host's product of `L` — both are the sum
    `Σ n, L (P, n) * r (n, q)`, and a finite sum does not depend on how it is scheduled.
  * The logistic function is the quotient `1 / (1 + exp (−z))` with the constant `1` written as its single-precision
    word.
-/
import proofs.«163603_g69458211110958_cont_9to1c4b_477_2_alg».proof.Proof.LibDenseHost

noncomputable section

namespace Cert.RowBlock

open Idealize.ShloMosaic Idealize.ShloMosaic.ValueIdx Idealize.ShloMosaic.DenseBlock

/-- Entry `(p, q)` of the product of a row block into zero is entry `(P, q)` of the host's whole product, when row
    `p` of the block is row `P` of the whole left operand and the right operands agree on column `q`. -/
theorem matmul_rows_eq_dotGeneral {R M N Q : Nat}
    (wfb : DotDims.WF ⟨2, ![R, N]⟩ ⟨2, ![N, Q]⟩ ⟨2, ![R, Q]⟩ [1] [0] [0] [1] [] [])
    (wfh : DotDims.WF ⟨2, ![M, N]⟩ ⟨2, ![N, Q]⟩ ⟨2, ![M, Q]⟩ [1] [0] [0] [1] [] [])
    {φ₁ φ₂ ψ₁ ψ₂ : FTy} (l : FVec Ideal ⟨2, ![R, N]⟩ φ₁) (r : FVec Ideal ⟨2, ![N, Q]⟩ φ₂)
    (L : FVec Ideal ⟨2, ![M, N]⟩ ψ₁) (r' : FVec Ideal ⟨2, ![N, Q]⟩ ψ₂) (sched : HostSchedule)
    (p : Fin R) (P : Fin M) (q : Fin Q)
    (hl : ∀ n : Fin N, (l (ix2 p n) : EReal) = L (ix2 P n)) (hr : ∀ n : Fin N, (r (ix2 n q) : EReal) = r' (ix2 n q)) :
    FloatOps.matmul (mmDims R N Q wfb) none l r (constant ⟨2, ![R, Q]⟩ .f32 0x00000000#32) (ix2 p q)
      = FloatOps.dotGeneral (mmDims M N Q wfh) none sched L r' (ix2 P q) := by
  rw [matmul_zero_apply, dotGeneral_apply_ix2]
  exact Finset.sum_congr rfl fun n _ => by rw [hl n, hr n]

/-- The single-precision word of one denotes `1`. -/
theorem ofBits_one : Ideal.ofBits .f32 0x3F800000#32 = 1 := by
  simp [Ideal.ofBits, Ideal.ieee, -EReal.coe_mul]; norm_num

/-- The logistic of `z` is `1 / (1 + exp (−z))` in the host's operations, the ones written as words. -/
theorem logistic_eq_quotient (z : Ideal .f32) :
    FloatOps.logistic z
      = FloatOps.hostDivf (FloatOps.ofBits (F := Ideal) .f32 0x3F800000#32)
          (FloatOps.addf (FloatOps.ofBits (F := Ideal) .f32 0x3F800000#32) (FloatOps.hostUnary .exp (FloatOps.hostNegf z))) := by
  rw [Ideal.ofBits_def, ofBits_one]
  rfl

end Cert.RowBlock

end
-- ==== Proof.KSpec.lean ====
/-
  The graph network's four stages as whole-array functions over the extended reals.

  With `·` the plain matrix product `(L · r) (k, q) = Σ n, L (k, n) * r (n, q)`:
  * the first support is `x · W1`;
  * the second support is `leaky (adj · S1) · W2`, where `leaky v` is `v` when `0 ≤ v` and `c * v` otherwise, `c` the
    single-precision word nearest 1/100;
  * the second convolution is `adj · S2`;
  * the class probabilities are the logistic of `(adj · S2) · W_out`, entry by entry.
  Each product is written as the host's contraction of the second axis of the left operand with the first of the right;
  over the extended reals that is the plain sum whatever the schedule.
-/
import proofs.«163603_g69458211110958_cont_9to1c4b_477_2_alg».proof.Proof.RowBlockMath

noncomputable section

namespace Cert.Gcn

open Idealize.ShloMosaic Idealize.ShloMosaic.ValueIdx Idealize.ShloMosaic.DenseBlock

theorem wf_x_w1 : DotDims.WF ⟨2, ![10000, 128]⟩ ⟨2, ![128, 32]⟩ ⟨2, ![10000, 32]⟩ [1] [0] [0] [1] [] [] := by decide
theorem wf_adj_s : DotDims.WF ⟨2, ![10000, 10000]⟩ ⟨2, ![10000, 32]⟩ ⟨2, ![10000, 32]⟩ [1] [0] [0] [1] [] [] := by decide
theorem wf_h_w2 : DotDims.WF ⟨2, ![10000, 32]⟩ ⟨2, ![32, 32]⟩ ⟨2, ![10000, 32]⟩ [1] [0] [0] [1] [] [] := by decide
theorem wf_x3_wout : DotDims.WF ⟨2, ![10000, 32]⟩ ⟨2, ![32, 16]⟩ ⟨2, ![10000, 16]⟩ [1] [0] [0] [1] [] [] := by decide
theorem wf_blk_adj_s : DotDims.WF ⟨2, ![400, 10000]⟩ ⟨2, ![10000, 32]⟩ ⟨2, ![400, 32]⟩ [1] [0] [0] [1] [] [] := by decide
theorem wf_blk_h_w2 : DotDims.WF ⟨2, ![400, 32]⟩ ⟨2, ![32, 32]⟩ ⟨2, ![400, 32]⟩ [1] [0] [0] [1] [] [] := by decide
theorem wf_blk_x3_wout : DotDims.WF ⟨2, ![400, 32]⟩ ⟨2, ![32, 16]⟩ ⟨2, ![400, 16]⟩ [1] [0] [0] [1] [] [] := by decide

/-- The matrix product `L · r` of an `[M, N]` by an `[N, Q]` array, as the host's contraction. -/
def prod {M N Q : Nat} (wf : DotDims.WF ⟨2, ![M, N]⟩ ⟨2, ![N, Q]⟩ ⟨2, ![M, Q]⟩ [1] [0] [0] [1] [] [])
    (L : (⟨2, ![M, N]⟩ : Shape).Idx → EReal) (r : (⟨2, ![N, Q]⟩ : Shape).Idx → EReal) : (⟨2, ![M, Q]⟩ : Shape).Idx → EReal :=
  FloatOps.dotGeneral (F := Ideal) (φ₁ := .f32) (φ₂ := .f32) (mmDims M N Q wf) none .single L r

/-- The leaky rectifier on one entry: `v` where `0 ≤ v`, the slope word times `v` elsewhere. -/
def leakyS (v : EReal) : EReal :=
  Scalar.select (FloatOps.cmpf (F := Ideal) (φ := .f32) .oge v (FloatOps.ofBits (F := Ideal) .f32 0x00000000#32)) v
    (FloatOps.mulf (F := Ideal) (φ := .f32) (FloatOps.ofBits (F := Ideal) .f32 0x3C23D70A#32) v)

/-- The first support `x · W1`. -/
def support1 (x : (⟨2, ![10000, 128]⟩ : Shape).Idx → EReal) (W1 : (⟨2, ![128, 32]⟩ : Shape).Idx → EReal) :
    (⟨2, ![10000, 32]⟩ : Shape).Idx → EReal := prod wf_x_w1 x W1

/-- The hidden activation `leaky (adj · S1)`. -/
def hiddenAct (adj : (⟨2, ![10000, 10000]⟩ : Shape).Idx → EReal) (S1 : (⟨2, ![10000, 32]⟩ : Shape).Idx → EReal) :
    (⟨2, ![10000, 32]⟩ : Shape).Idx → EReal := fun i => leakyS (prod wf_adj_s adj S1 i)

/-- The second support `leaky (adj · S1) · W2`. -/
def support2 (adj : (⟨2, ![10000, 10000]⟩ : Shape).Idx → EReal) (S1 : (⟨2, ![10000, 32]⟩ : Shape).Idx → EReal)
    (W2 : (⟨2, ![32, 32]⟩ : Shape).Idx → EReal) : (⟨2, ![10000, 32]⟩ : Shape).Idx → EReal :=
  prod wf_h_w2 (hiddenAct adj S1) W2

/-- The second convolution `adj · S2`. -/
def conv2 (adj : (⟨2, ![10000, 10000]⟩ : Shape).Idx → EReal) (S2 : (⟨2, ![10000, 32]⟩ : Shape).Idx → EReal) :
    (⟨2, ![10000, 32]⟩ : Shape).Idx → EReal := prod wf_adj_s adj S2

/-- The class probabilities: the logistic of `(adj · S2) · W_out`. -/
def probs (adj : (⟨2, ![10000, 10000]⟩ : Shape).Idx → EReal) (S2 : (⟨2, ![10000, 32]⟩ : Shape).Idx → EReal)
    (Wout : (⟨2, ![32, 16]⟩ : Shape).Idx → EReal) : (⟨2, ![10000, 16]⟩ : Shape).Idx → EReal :=
  fun i => FloatOps.logistic (F := Ideal) (φ := .f32) (prod wf_x3_wout (conv2 adj S2) Wout i)

end Cert.Gcn

end
-- ==== Proof.KProj.lean ====
/-
  The first region: the first support `x · W1`, computed whole.

  The region has one grid point, whose blocks are the whole arrays. Entry `(P, q)` of what it writes back is
  `Σ n, x (P, n) * W1 (n, q)`, entry `(P, q)` of the product, so after the region the support's array holds `x · W1`.
-/
import proofs.«163603_g69458211110958_cont_9to1c4b_477_2_alg».proof.Proof.Gen.KernelIdeal.Frame
import proofs.«163603_g69458211110958_cont_9to1c4b_477_2_alg».proof.Proof.KSpec
import Idealize.ShloMosaic.Lib.Pipeline.Value
import Idealize.ShloMosaic.Lib.ValueIdx

set_option maxRecDepth 16384

noncomputable section

namespace Cert.KernelIdeal.Proj

open Cert.KernelIdeal Cert.KernelIdeal.Gen Cert.Gcn Cert.RowBlock
open Idealize.ShloMosaic Idealize.ShloMosaic.TcCoe Idealize.ShloMosaic.ValueIdx Idealize.ShloMosaic.DenseBlock
open Idealize.ShloMosaic.Pipeline (Dat Cfg Window)

/-- Entry `(P, q)` of the stored product is entry `(P, q)` of `x · W1`. -/
theorem pay_support1 (x0 : Vec Ideal S10000x128 .f32) (x1 : Vec Ideal S128x32 .f32)
    (x : S10000x128.Idx → EReal) (W1 : S128x32.Idx → EReal) (P : Fin 10000) (q : Fin 32)
    (h0 : ∀ n : Fin 128, (x0 (ix2 P n) : EReal) = x (ix2 P n))
    (h1 : ∀ n : Fin 128, (x1 (ix2 n q) : EReal) = W1 (ix2 n q)) :
    k0_pay1 (F := Ideal) x0 x1 (ix2 P q) = support1 x W1 (ix2 P q) := by
  unfold k0_pay1 support1 prod
  show FloatOps.matmul (F := Ideal) (φ₁ := .f32) (φ₂ := .f32) (mmDims 10000 128 32 wf_x_w1) none x0 x1
      (constant ⟨2, ![10000, 32]⟩ .f32 0x00000000#32) (ix2 P q) = _
  exact matmul_rows_eq_dotGeneral (φ₁ := .f32) (φ₂ := .f32) (ψ₁ := .f32) (ψ₂ := .f32) wf_x_w1 wf_x_w1 x0 x1 x W1 .single P P q h0 h1

variable (V : (c : Dev nD) → (b : Ref sig .tc) → Buf (Elt Ideal) ((c : Thread nD τ).loc b))

theorem hz : (![0, 0] : Fin 2 → Nat) = fun _ => 0 := funext fun a => by fin_cases a <;> rfl

/-- The printed index maps at the one point: every window's block is block `(0, 0)`. -/
theorem idx : ∀ t : Fin cfg0.N, win0_0.index t 0 = 0 ∧ win0_0.index t 1 = 0 ∧ win0_1.index t 0 = 0 ∧ win0_1.index t 1 = 0
    ∧ win0_2.index t 0 = 0 ∧ win0_2.index t 1 = 0 :=
  (by decide +kernel : ∀ t : Fin grid0.N, _)

/-- The feature window's block is the whole feature matrix. -/
theorem x_whole (c : Dev nD) (t : Fin cfg0.N) (P : Fin 10000) (n : Fin 128) :
    (iblk0 V c 0 t : Vec Ideal S10000x128 .f32) (ix2 P n) = (V c main_arg0 : S10000x128.Idx → EReal) (ix2 P n) := by
  obtain ⟨e0, e1, -⟩ := idx t
  unfold iblk0
  rw [View.read_apply]
  show (V c main_arg0 : S10000x128.Idx → EReal) _ = V c main_arg0 _
  congr 1
  funext a
  apply Fin.ext
  match a with
  | ⟨0, _⟩ => show win0_0.index t 0 * 10000 + 1 * P.val = P.val; omega
  | ⟨1, _⟩ => show win0_0.index t 1 * 128 + 1 * n.val = n.val; omega

/-- The weight window's block is the whole first weight matrix. -/
theorem w1_whole (c : Dev nD) (t : Fin cfg0.N) (n : Fin 128) (q : Fin 32) :
    (iblk0 V c 1 t : Vec Ideal S128x32 .f32) (ix2 n q) = (V c main_arg2 : S128x32.Idx → EReal) (ix2 n q) := by
  obtain ⟨-, -, e2, e3, -⟩ := idx t
  unfold iblk0
  rw [View.read_apply]
  show (V c main_arg2 : S128x32.Idx → EReal) _ = V c main_arg2 _
  congr 1
  funext a
  apply Fin.ext
  match a with
  | ⟨0, _⟩ => show win0_1.index t 0 * 128 + 1 * n.val = n.val; omega
  | ⟨1, _⟩ => show win0_1.index t 1 * 32 + 1 * q.val = q.val; omega

/-- What the one point writes back is `x · W1` read through the whole-array block. -/
theorem flushed_support1 (c : Dev nD) (t : Fin cfg0.N) :
    (dat0 V c).flushed 2 t = ((cfg0.win 2).blk t).view.read (Elt Ideal) (support1 (V c main_arg0) (V c main_arg2)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x32) hz]
  funext (j : S10000x32.Idx)
  obtain ⟨P, q, rfl⟩ : ∃ (P : Fin 10000) (q : Fin 32), j = ix2 P q := ⟨j 0, j 1, eq_ix2 j⟩
  obtain ⟨-, -, -, -, e4, e5⟩ := idx t
  have he : ((cfg0.win 2).blk t).view.emb (ix2 P q) = (ix2 P q : S10000x32.Idx) := by
    funext a
    apply Fin.ext
    match a with
    | ⟨0, _⟩ => show win0_2.index t 0 * 10000 + 1 * P.val = P.val; omega
    | ⟨1, _⟩ => show win0_2.index t 1 * 32 + 1 * q.val = q.val; omega
  show k0_pay1 (F := Ideal) (iblk0 V c 0 t) (iblk0 V c 1 t) (ix2 P q)
    = support1 (V c main_arg0) (V c main_arg2) (((cfg0.win 2).blk t).view.emb (ix2 P q))
  rw [he]
  exact pay_support1 (iblk0 V c 0 t) (iblk0 V c 1 t) (V c main_arg0) (V c main_arg2) P q
    (fun n => x_whole V c t P n) (fun n => w1_whole V c t n q)

/-- An index of the support is in the one block iff each coordinate is in the whole range of its axis. -/
theorem mem_blk (t : Fin cfg0.N) (i : S10000x32.Idx) :
    i ∈ ((cfg0.win 2).blk t).view.set ↔ ∀ a : Fin 2, win0_2.index t a * S10000x32.size a ≤ (i a).val ∧ (i a).val < win0_2.index t a * S10000x32.size a + S10000x32.size a := by
  show i ∈ ((View.whole main_call0_v0).slice (win0_2.rect t)).set ↔ _
  rw [View.set_slice_whole, Rect.mem_set_unit]
  exact Iff.rfl

/-- The one block covers the support's array. -/
theorem cover (i : S10000x32.Idx) : ∃ t : Fin cfg0.N, (cfg0.win 2).flush t = true ∧ i ∈ ((cfg0.win 2).blk t).view.set := by
  have hi0 : (i 0).val < 10000 := (i 0).isLt
  have hi1 : (i 1).val < 32 := (i 1).isLt
  obtain ⟨-, -, -, -, e4, e5⟩ := idx t0_0
  refine ⟨t0_0, flush0_2 t0_0, ?_⟩
  rw [mem_blk]
  intro a
  match a with
  | ⟨0, _⟩ => show win0_2.index t0_0 0 * 10000 ≤ (i 0).val ∧ (i 0).val < win0_2.index t0_0 0 * 10000 + 10000; omega
  | ⟨1, _⟩ => show win0_2.index t0_0 1 * 32 ≤ (i 1).val ∧ (i 1).val < win0_2.index t0_0 1 * 32 + 32; omega

/-- After the region the support's array holds `x · W1` of the arrays the region found. -/
theorem final_support1 (c : Dev nD) : (dat0 V c).arrAt 2 cfg0.N = support1 (V c main_arg0) (V c main_arg2) :=
  (dat0 V c).arrAt_eq_of_cover 2 _ (fun t _ => flushed_support1 V c t) cover

end Cert.KernelIdeal.Proj

end
-- ==== Proof.KLayer1.lean ====
/-
  The middle region: the second support `leaky (adj · S1) · W2`, block of rows by block of rows.

  The grid has 25 points; point `t` is handed rows `400 t … 400 t + 399` of the adjacency matrix, the whole first
  support `S1` and the whole converted second weight matrix, and writes back rows `400 t … 400 t + 399` of the second
  support. Entry `(p, k)` of the product it forms first is `Σ n, adj (400 t + p, n) * S1 (n, k)`, entry `(400 t + p, k)`
  of `adj · S1`; the leaky rectifier acts entry by entry, so row `p` of the activated block is row `400 t + p` of
  `leaky (adj · S1)`, and entry `(p, q)` of what is stored is `Σ k, leaky (adj · S1) (400 t + p, k) * W2 (k, q)`. Every
  row lies in exactly the block of the point `row / 400`, so after the last point the array holds the second support.
-/
import proofs.«163603_g69458211110958_cont_9to1c4b_477_2_alg».proof.Proof.Gen.KernelIdeal.Frame
import proofs.«163603_g69458211110958_cont_9to1c4b_477_2_alg».proof.Proof.KSpec
import Idealize.ShloMosaic.Lib.Pipeline.Value
import Idealize.ShloMosaic.Lib.ValueIdx

set_option maxRecDepth 16384

noncomputable section

namespace Cert.KernelIdeal.Layer1

open Cert.KernelIdeal Cert.KernelIdeal.Gen Cert.Gcn Cert.RowBlock
open Idealize.ShloMosaic Idealize.ShloMosaic.TcCoe Idealize.ShloMosaic.ValueIdx Idealize.ShloMosaic.DenseBlock
open Idealize.ShloMosaic.Pipeline (Dat Cfg Window)

/-! ## The body's store at an entry -/

/-- Entry `(p, q)` of the stored block is entry `(P, q)` of `leaky (adj · S1) · W2` when row `p` of the loaded block is
    row `P` of `adj`. -/
theorem pay_support2 (x0 : Vec Ideal S400x10000 .f32) (x1 : Vec Ideal S10000x32 .bf16) (x2 : Vec Ideal S32x32 .bf16)
    (adj : S10000x10000.Idx → EReal) (S1 : S10000x32.Idx → EReal) (W2 : S32x32.Idx → EReal)
    (p : Fin 400) (P : Fin 10000) (q : Fin 32)
    (h0 : ∀ n : Fin 10000, (x0 (ix2 p n) : EReal) = adj (ix2 P n))
    (h1 : ∀ (n : Fin 10000) (k : Fin 32), (x1 (ix2 n k) : EReal) = S1 (ix2 n k))
    (h2 : ∀ k : Fin 32, (x2 (ix2 k q) : EReal) = W2 (ix2 k q)) :
    k1_pay1 (F := Ideal) x0 x1 x2 (ix2 p q) = support2 adj S1 W2 (ix2 P q) := by
  have key : ∀ k : Fin 32,
      FloatOps.matmul (F := Ideal) (mmDims 400 10000 32 wf_blk_adj_s) none
        (truncf (F := Ideal) (φ := .f32) .bf16 x0 bitsLt_bf16_f32)
        (shapeCast (α := Ideal .bf16) S10000x32 x1 shapeCasts_S10000x32_S10000x32)
        (constant ⟨2, ![400, 32]⟩ .f32 0x00000000#32) (ix2 p k)
      = prod wf_adj_s adj S1 (ix2 P k) := fun k => by
    unfold prod
    exact matmul_rows_eq_dotGeneral wf_blk_adj_s wf_adj_s (truncf (F := Ideal) (φ := .f32) .bf16 x0 bitsLt_bf16_f32)
      (shapeCast (α := Ideal .bf16) S10000x32 x1 shapeCasts_S10000x32_S10000x32) adj S1 .single p P k h0
      (fun n => by rw [shapeCast_self]; exact h1 n k)
  unfold k1_pay1 support2 prod
  refine matmul_rows_eq_dotGeneral wf_blk_h_w2 wf_h_w2 _ (shapeCast (α := Ideal .bf16) S32x32 x2 shapeCasts_S32x32_S32x32)
    (hiddenAct adj S1) W2 .single p P q (fun k => ?_) (fun k => by rw [shapeCast_self]; exact h2 k)
  exact congrArg leakyS (key k)

/-! ## The windows' blocks as rows of their arrays -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the adjacency window and the output window move down one block of rows
    per point, the support and the weights stay. -/
theorem idx : ∀ t : Fin cfg1.N, win1_0.index t 0 = t.val ∧ win1_0.index t 1 = 0 ∧ win1_1.index t 0 = 0 ∧ win1_1.index t 1 = 0
    ∧ win1_2.index t 0 = 0 ∧ win1_2.index t 1 = 0 ∧ win1_3.index t 0 = t.val ∧ win1_3.index t 1 = 0 :=
  (by decide +kernel : ∀ t : Fin grid1.N, _)

/-- Row `p` of the adjacency block at point `t` is row `400 t + p` of the adjacency matrix. -/
theorem adj_rows (c : Dev nD) (t : Fin cfg1.N) (p : Fin 400) (n : Fin 10000) (P : Fin 10000) (hP : P.val = 400 * t.val + p.val) :
    (iblk1 V c 0 t : Vec Ideal S400x10000 .f32) (ix2 p n) = (V c main_arg1 : S10000x10000.Idx → EReal) (ix2 P n) := by
  obtain ⟨e0, e1, -⟩ := idx t
  unfold iblk1
  rw [View.read_apply]
  show (V c main_arg1 : S10000x10000.Idx → EReal) _ = V c main_arg1 _
  congr 1
  funext a
  apply Fin.ext
  match a with
  | ⟨0, _⟩ => show win1_0.index t 0 * 400 + 1 * p.val = P.val; omega
  | ⟨1, _⟩ => show win1_0.index t 1 * 10000 + 1 * n.val = n.val; omega

/-- The support's block at every point is the whole first support. -/
theorem support_whole (c : Dev nD) (t : Fin cfg1.N) (n : Fin 10000) (k : Fin 32) :
    (iblk1 V c 1 t : Vec Ideal S10000x32 .bf16) (ix2 n k) = (V c main_call0_v0 : S10000x32.Idx → EReal) (ix2 n k) := by
  obtain ⟨-, -, e2, e3, -⟩ := idx t
  unfold iblk1
  rw [View.read_apply]
  show (V c main_call0_v0 : S10000x32.Idx → EReal) _ = V c main_call0_v0 _
  congr 1
  funext a
  apply Fin.ext
  match a with
  | ⟨0, _⟩ => show win1_1.index t 0 * 10000 + 1 * n.val = n.val; omega
  | ⟨1, _⟩ => show win1_1.index t 1 * 32 + 1 * k.val = k.val; omega

/-- The weights' block at every point is the whole converted second weight matrix. -/
theorem weights_whole (c : Dev nD) (t : Fin cfg1.N) (k : Fin 32) (q : Fin 32) :
    (iblk1 V c 2 t : Vec Ideal S32x32 .bf16) (ix2 k q) = (V c main_call0_v1 : S32x32.Idx → EReal) (ix2 k q) := by
  obtain ⟨-, -, -, -, e4, e5, -⟩ := idx t
  unfold iblk1
  rw [View.read_apply]
  show (V c main_call0_v1 : S32x32.Idx → EReal) _ = V c main_call0_v1 _
  congr 1
  funext a
  apply Fin.ext
  match a with
  | ⟨0, _⟩ => show win1_2.index t 0 * 32 + 1 * k.val = k.val; omega
  | ⟨1, _⟩ => show win1_2.index t 1 * 32 + 1 * q.val = q.val; omega

theorem lt_N (t : Fin cfg1.N) : t.val < 25 := lt_of_lt_of_eq t.isLt N_1

/-! ## What a point writes back, the cover, and the array after the region -/

/-- What point `t` writes back is block `t` of the second support. -/
theorem flushed_support2 (c : Dev nD) (t : Fin cfg1.N) :
    (dat1 V c).flushed 3 t = ((cfg1.win 3).blk t).view.read (Elt Ideal)
      (support2 (V c main_arg1) (V c main_call0_v0) (V c main_call0_v1)) := by
  show (cfg1.win 3).cut (grid1.coords t) ((dat1 V c).after 3 t) = _
  rw [after1_3]
  unfold out1_3
  rw [View.canon_unit_zero hz]
  simp only [View.ld_unit_zero (S := S400x10000) hz, View.ld_unit_zero (S := S10000x32) hz, View.ld_unit_zero (S := S32x32) hz]
  funext (j : S400x32.Idx)
  obtain ⟨p, q, rfl⟩ : ∃ (p : Fin 400) (q : Fin 32), j = ix2 p q := ⟨j 0, j 1, eq_ix2 j⟩
  have ht := lt_N t
  obtain ⟨-, -, -, -, -, -, e6, e7⟩ := idx t
  have he : ((cfg1.win 3).blk t).view.emb (ix2 p q) = (ix2 (⟨400 * t.val + p.val, by omega⟩ : Fin 10000) q : S10000x32.Idx) := by
    funext a
    apply Fin.ext
    match a with
    | ⟨0, _⟩ => show win1_3.index t 0 * 400 + 1 * p.val = 400 * t.val + p.val; omega
    | ⟨1, _⟩ => show win1_3.index t 1 * 32 + 1 * q.val = q.val; omega
  show k1_pay1 (F := Ideal) (iblk1 V c 0 t) (iblk1 V c 1 t) (iblk1 V c 2 t) (ix2 p q)
    = support2 (V c main_arg1) (V c main_call0_v0) (V c main_call0_v1) (((cfg1.win 3).blk t).view.emb (ix2 p q))
  rw [he]
  exact pay_support2 (iblk1 V c 0 t) (iblk1 V c 1 t) (iblk1 V c 2 t) (V c main_arg1) (V c main_call0_v0) (V c main_call0_v1) p _ q
    (fun n => adj_rows V c t p n _ rfl) (fun n k => support_whole V c t n k) (fun k => weights_whole V c t k q)

/-- An index of the second support is in point `t`'s block iff each coordinate is in the block's range on its axis. -/
theorem mem_blk (t : Fin cfg1.N) (i : S10000x32.Idx) :
    i ∈ ((cfg1.win 3).blk t).view.set ↔ ∀ a : Fin 2, win1_3.index t a * S400x32.size a ≤ (i a).val ∧ (i a).val < win1_3.index t a * S400x32.size a + S400x32.size a := by
  show i ∈ ((View.whole main_call0_v2).slice (win1_3.rect t)).set ↔ _
  rw [View.set_slice_whole, Rect.mem_set_unit]
  exact Iff.rfl

/-- Every row of the second support lies in the block of the point `row / 400`. -/
theorem cover (i : S10000x32.Idx) : ∃ t : Fin cfg1.N, (cfg1.win 3).flush t = true ∧ i ∈ ((cfg1.win 3).blk t).view.set := by
  have hi0 : (i 0).val < 10000 := (i 0).isLt
  have hi1 : (i 1).val < 32 := (i 1).isLt
  obtain ⟨t, ht⟩ : ∃ t : Fin cfg1.N, t.val = (i 0).val / 400 := ⟨⟨(i 0).val / 400, by rw [show cfg1.N = 25 from N_1]; omega⟩, rfl⟩
  obtain ⟨-, -, -, -, -, -, e6, e7⟩ := idx t
  refine ⟨t, flush1_3 t, ?_⟩
  rw [mem_blk]
  intro a
  match a with
  | ⟨0, _⟩ => show win1_3.index t 0 * 400 ≤ (i 0).val ∧ (i 0).val < win1_3.index t 0 * 400 + 400; omega
  | ⟨1, _⟩ => show win1_3.index t 1 * 32 ≤ (i 1).val ∧ (i 1).val < win1_3.index t 1 * 32 + 32; omega

/-- After the region the array holds the second support of the arrays the region found. -/
theorem final_support2 (c : Dev nD) :
    (dat1 V c).arrAt 3 cfg1.N = support2 (V c main_arg1) (V c main_call0_v0) (V c main_call0_v1) :=
  (dat1 V c).arrAt_eq_of_cover 3 _ (fun t _ => flushed_support2 V c t) cover

end Cert.KernelIdeal.Layer1

end
-- ==== Proof.KLayer2.lean ====
/-
  The last region: the second convolution and the class probabilities, block of rows by block of rows.

  The grid has 25 points; point `t` is handed rows `400 t … 400 t + 399` of the adjacency matrix, the whole second
  support `S2` and the whole output weights, and writes back rows `400 t … 400 t + 399` of two arrays. Entry `(p, q)`
  of what it writes to the first is `Σ n, adj (400 t + p, n) * S2 (n, q)`, which is entry `(400 t + p, q)` of the
  whole product `adj · S2`; to the second, the logistic of `Σ k, (adj · S2) (400 t + p, k) * W_out (k, q)`. Every row
  lies in exactly the block of the point `row / 400`, so after the last point the two arrays hold `adj · S2` and the
  class probabilities, whatever they held before.
-/
import proofs.«163603_g69458211110958_cont_9to1c4b_477_2_alg».proof.Proof.Gen.KernelIdeal.Frame
import proofs.«163603_g69458211110958_cont_9to1c4b_477_2_alg».proof.Proof.KSpec
import Idealize.ShloMosaic.Lib.Pipeline.Value
import Idealize.ShloMosaic.Lib.ValueIdx

set_option maxRecDepth 16384

noncomputable section

namespace Cert.KernelIdeal.Layer2

open Cert.KernelIdeal Cert.KernelIdeal.Gen Cert.Gcn Cert.RowBlock
open Idealize.ShloMosaic Idealize.ShloMosaic.TcCoe Idealize.ShloMosaic.ValueIdx Idealize.ShloMosaic.DenseBlock
open Idealize.ShloMosaic.Pipeline (Dat Cfg Window)

/-! ## The body's two stores at an entry -/

/-- Entry `(p, q)` of the stored product is entry `(P, q)` of `adj · S2` when row `p` of the loaded block is row `P`
    of `adj`. -/
theorem pay_conv2 (x0 : Vec Ideal S400x10000 .f32) (x1 : Vec Ideal S10000x32 .bf16)
    (adj : S10000x10000.Idx → EReal) (S2 : S10000x32.Idx → EReal) (p : Fin 400) (P : Fin 10000) (q : Fin 32)
    (h0 : ∀ n : Fin 10000, (x0 (ix2 p n) : EReal) = adj (ix2 P n))
    (h1 : ∀ n : Fin 10000, (x1 (ix2 n q) : EReal) = S2 (ix2 n q)) :
    k2_pay1 (F := Ideal) x0 x1 (ix2 p q) = conv2 adj S2 (ix2 P q) := by
  unfold k2_pay1 conv2 prod
  exact matmul_rows_eq_dotGeneral wf_blk_adj_s wf_adj_s (truncf .bf16 x0 bitsLt_bf16_f32)
    (shapeCast S10000x32 x1 shapeCasts_S10000x32_S10000x32) adj S2 .single p P q h0
    (fun n => by rw [shapeCast_self]; exact h1 n)

/-- Entry `(p, q)` of the stored probabilities is entry `(P, q)` of the logistic of `(adj · S2) · W_out`. -/
theorem pay_probs (x0 : Vec Ideal S400x10000 .f32) (x1 : Vec Ideal S10000x32 .bf16) (x2 : Vec Ideal S32x16 .bf16)
    (adj : S10000x10000.Idx → EReal) (S2 : S10000x32.Idx → EReal) (Wout : S32x16.Idx → EReal)
    (p : Fin 400) (P : Fin 10000) (q : Fin 16)
    (h0 : ∀ n : Fin 10000, (x0 (ix2 p n) : EReal) = adj (ix2 P n))
    (h1 : ∀ (n : Fin 10000) (k : Fin 32), (x1 (ix2 n k) : EReal) = S2 (ix2 n k))
    (h2 : ∀ k : Fin 32, (x2 (ix2 k q) : EReal) = Wout (ix2 k q)) :
    k2_pay2 (F := Ideal) x0 x1 x2 (ix2 p q) = probs adj S2 Wout (ix2 P q) := by
  unfold k2_pay2 probs
  show FloatOps.logistic (F := Ideal) (φ := .f32) _ = FloatOps.logistic (F := Ideal) (φ := .f32) _
  refine congrArg (FloatOps.logistic (F := Ideal) (φ := .f32)) ?_
  unfold prod
  exact matmul_rows_eq_dotGeneral wf_blk_x3_wout wf_x3_wout (truncf .bf16 (k2_pay1 x0 x1) bitsLt_bf16_f32)
    (shapeCast S32x16 x2 shapeCasts_S32x16_S32x16) (conv2 adj S2) Wout .single p P q
    (fun k => pay_conv2 x0 x1 adj S2 p P k h0 (fun n => h1 n k))
    (fun k => by rw [shapeCast_self]; exact h2 k)

/-! ## The windows' blocks as rows of their arrays -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the adjacency window and the two output windows move down one block of
    rows per point, the support and the weights stay. -/
theorem idx : ∀ t : Fin cfg2.N, win2_0.index t 0 = t.val ∧ win2_0.index t 1 = 0 ∧ win2_1.index t 0 = 0 ∧ win2_1.index t 1 = 0
    ∧ win2_2.index t 0 = 0 ∧ win2_2.index t 1 = 0 ∧ win2_3.index t 0 = t.val ∧ win2_3.index t 1 = 0
    ∧ win2_4.index t 0 = t.val ∧ win2_4.index t 1 = 0 :=
  (by decide +kernel : ∀ t : Fin grid2.N, _)

/-- Row `p` of the adjacency block at point `t` is row `400 t + p` of the adjacency matrix. -/
theorem adj_rows (c : Dev nD) (t : Fin cfg2.N) (p : Fin 400) (n : Fin 10000) (P : Fin 10000) (hP : P.val = 400 * t.val + p.val) :
    (iblk2 V c 0 t : Vec Ideal S400x10000 .f32) (ix2 p n) = (V c main_arg1 : S10000x10000.Idx → EReal) (ix2 P n) := by
  obtain ⟨e0, e1, -⟩ := idx t
  unfold iblk2
  rw [View.read_apply]
  show (V c main_arg1 : S10000x10000.Idx → EReal) _ = V c main_arg1 _
  congr 1
  funext a
  apply Fin.ext
  match a with
  | ⟨0, _⟩ => show win2_0.index t 0 * 400 + 1 * p.val = P.val; omega
  | ⟨1, _⟩ => show win2_0.index t 1 * 10000 + 1 * n.val = n.val; omega

/-- The support's block at every point is the whole second support. -/
theorem support_whole (c : Dev nD) (t : Fin cfg2.N) (n : Fin 10000) (k : Fin 32) :
    (iblk2 V c 1 t : Vec Ideal S10000x32 .bf16) (ix2 n k) = (V c main_call0_v2 : S10000x32.Idx → EReal) (ix2 n k) := by
  obtain ⟨-, -, e2, e3, -⟩ := idx t
  unfold iblk2
  rw [View.read_apply]
  show (V c main_call0_v2 : S10000x32.Idx → EReal) _ = V c main_call0_v2 _
  congr 1
  funext a
  apply Fin.ext
  match a with
  | ⟨0, _⟩ => show win2_1.index t 0 * 10000 + 1 * n.val = n.val; omega
  | ⟨1, _⟩ => show win2_1.index t 1 * 32 + 1 * k.val = k.val; omega

/-- The weights' block at every point is the whole converted output weight matrix. -/
theorem weights_whole (c : Dev nD) (t : Fin cfg2.N) (k : Fin 32) (q : Fin 16) :
    (iblk2 V c 2 t : Vec Ideal S32x16 .bf16) (ix2 k q) = (V c main_call0_v3 : S32x16.Idx → EReal) (ix2 k q) := by
  obtain ⟨-, -, -, -, e4, e5, -⟩ := idx t
  unfold iblk2
  rw [View.read_apply]
  show (V c main_call0_v3 : S32x16.Idx → EReal) _ = V c main_call0_v3 _
  congr 1
  funext a
  apply Fin.ext
  match a with
  | ⟨0, _⟩ => show win2_2.index t 0 * 32 + 1 * k.val = k.val; omega
  | ⟨1, _⟩ => show win2_2.index t 1 * 16 + 1 * q.val = q.val; omega

theorem lt_N (t : Fin cfg2.N) : t.val < 25 := lt_of_lt_of_eq t.isLt N_2

/-! ## What a point writes back, the cover, and the arrays after the region -/

/-- What point `t` writes back to the first output is block `t` of `adj · S2`. -/
theorem flushed_conv2 (c : Dev nD) (t : Fin cfg2.N) :
    (dat2 V c).flushed 3 t = ((cfg2.win 3).blk t).view.read (Elt Ideal) (conv2 (V c main_arg1) (V c main_call0_v2)) := by
  show (cfg2.win 3).cut (grid2.coords t) ((dat2 V c).after 3 t) = _
  rw [after2_3]
  unfold out2_3
  rw [View.canon_unit_zero hz]
  simp only [View.ld_unit_zero (S := S400x10000) hz, View.ld_unit_zero (S := S10000x32) hz]
  funext (j : S400x32.Idx)
  obtain ⟨p, q, rfl⟩ : ∃ (p : Fin 400) (q : Fin 32), j = ix2 p q := ⟨j 0, j 1, eq_ix2 j⟩
  have ht := lt_N t
  obtain ⟨-, -, -, -, -, -, e6, e7, -⟩ := idx t
  have he : ((cfg2.win 3).blk t).view.emb (ix2 p q) = (ix2 (⟨400 * t.val + p.val, by omega⟩ : Fin 10000) q : S10000x32.Idx) := by
    funext a
    apply Fin.ext
    match a with
    | ⟨0, _⟩ => show win2_3.index t 0 * 400 + 1 * p.val = 400 * t.val + p.val; omega
    | ⟨1, _⟩ => show win2_3.index t 1 * 32 + 1 * q.val = q.val; omega
  show k2_pay1 (F := Ideal) (iblk2 V c 0 t) (iblk2 V c 1 t) (ix2 p q)
    = conv2 (V c main_arg1) (V c main_call0_v2) (((cfg2.win 3).blk t).view.emb (ix2 p q))
  rw [he]
  exact pay_conv2 (iblk2 V c 0 t) (iblk2 V c 1 t) (V c main_arg1) (V c main_call0_v2) p _ q
    (fun n => adj_rows V c t p n _ rfl) (fun n => support_whole V c t n q)

/-- What point `t` writes back to the second output is block `t` of the class probabilities. -/
theorem flushed_probs (c : Dev nD) (t : Fin cfg2.N) :
    (dat2 V c).flushed 4 t = ((cfg2.win 4).blk t).view.read (Elt Ideal)
      (probs (V c main_arg1) (V c main_call0_v2) (V c main_call0_v3)) := by
  show (cfg2.win 4).cut (grid2.coords t) ((dat2 V c).after 4 t) = _
  rw [after2_4]
  unfold out2_4
  rw [View.canon_unit_zero hz]
  simp only [View.ld_unit_zero (S := S400x10000) hz, View.ld_unit_zero (S := S10000x32) hz, View.ld_unit_zero (S := S32x16) hz]
  funext (j : S400x16.Idx)
  obtain ⟨p, q, rfl⟩ : ∃ (p : Fin 400) (q : Fin 16), j = ix2 p q := ⟨j 0, j 1, eq_ix2 j⟩
  have ht := lt_N t
  obtain ⟨-, -, -, -, -, -, -, -, e8, e9⟩ := idx t
  have he : ((cfg2.win 4).blk t).view.emb (ix2 p q) = (ix2 (⟨400 * t.val + p.val, by omega⟩ : Fin 10000) q : S10000x16.Idx) := by
    funext a
    apply Fin.ext
    match a with
    | ⟨0, _⟩ => show win2_4.index t 0 * 400 + 1 * p.val = 400 * t.val + p.val; omega
    | ⟨1, _⟩ => show win2_4.index t 1 * 16 + 1 * q.val = q.val; omega
  show k2_pay2 (F := Ideal) (iblk2 V c 0 t) (iblk2 V c 1 t) (iblk2 V c 2 t) (ix2 p q)
    = probs (V c main_arg1) (V c main_call0_v2) (V c main_call0_v3) (((cfg2.win 4).blk t).view.emb (ix2 p q))
  rw [he]
  exact pay_probs (iblk2 V c 0 t) (iblk2 V c 1 t) (iblk2 V c 2 t) (V c main_arg1) (V c main_call0_v2) (V c main_call0_v3) p _ q
    (fun n => adj_rows V c t p n _ rfl) (fun n k => support_whole V c t n k) (fun k => weights_whole V c t k q)

/-- An index of the first output is in point `t`'s block iff each coordinate is in the block's range on its axis. -/
theorem mem_blk3 (t : Fin cfg2.N) (i : S10000x32.Idx) :
    i ∈ ((cfg2.win 3).blk t).view.set ↔ ∀ a : Fin 2, win2_3.index t a * S400x32.size a ≤ (i a).val ∧ (i a).val < win2_3.index t a * S400x32.size a + S400x32.size a := by
  show i ∈ ((View.whole main_v0_1).slice (win2_3.rect t)).set ↔ _
  rw [View.set_slice_whole, Rect.mem_set_unit]
  exact Iff.rfl

/-- The same for the second output. -/
theorem mem_blk4 (t : Fin cfg2.N) (i : S10000x16.Idx) :
    i ∈ ((cfg2.win 4).blk t).view.set ↔ ∀ a : Fin 2, win2_4.index t a * S400x16.size a ≤ (i a).val ∧ (i a).val < win2_4.index t a * S400x16.size a + S400x16.size a := by
  show i ∈ ((View.whole main_v0_0).slice (win2_4.rect t)).set ↔ _
  rw [View.set_slice_whole, Rect.mem_set_unit]
  exact Iff.rfl

/-- Every row of the first output lies in the block of the point `row / 400`. -/
theorem cover3 (i : S10000x32.Idx) : ∃ t : Fin cfg2.N, (cfg2.win 3).flush t = true ∧ i ∈ ((cfg2.win 3).blk t).view.set := by
  have hi0 : (i 0).val < 10000 := (i 0).isLt
  have hi1 : (i 1).val < 32 := (i 1).isLt
  obtain ⟨t, ht⟩ : ∃ t : Fin cfg2.N, t.val = (i 0).val / 400 := ⟨⟨(i 0).val / 400, by rw [show cfg2.N = 25 from N_2]; omega⟩, rfl⟩
  obtain ⟨-, -, -, -, -, -, e6, e7, -⟩ := idx t
  refine ⟨t, flush2_3 t, ?_⟩
  rw [mem_blk3]
  intro a
  match a with
  | ⟨0, _⟩ => show win2_3.index t 0 * 400 ≤ (i 0).val ∧ (i 0).val < win2_3.index t 0 * 400 + 400; omega
  | ⟨1, _⟩ => show win2_3.index t 1 * 32 ≤ (i 1).val ∧ (i 1).val < win2_3.index t 1 * 32 + 32; omega

/-- Every row of the second output lies in the block of the point `row / 400`. -/
theorem cover4 (i : S10000x16.Idx) : ∃ t : Fin cfg2.N, (cfg2.win 4).flush t = true ∧ i ∈ ((cfg2.win 4).blk t).view.set := by
  have hi0 : (i 0).val < 10000 := (i 0).isLt
  have hi1 : (i 1).val < 16 := (i 1).isLt
  obtain ⟨t, ht⟩ : ∃ t : Fin cfg2.N, t.val = (i 0).val / 400 := ⟨⟨(i 0).val / 400, by rw [show cfg2.N = 25 from N_2]; omega⟩, rfl⟩
  obtain ⟨-, -, -, -, -, -, -, -, e8, e9⟩ := idx t
  refine ⟨t, flush2_4 t, ?_⟩
  rw [mem_blk4]
  intro a
  match a with
  | ⟨0, _⟩ => show win2_4.index t 0 * 400 ≤ (i 0).val ∧ (i 0).val < win2_4.index t 0 * 400 + 400; omega
  | ⟨1, _⟩ => show win2_4.index t 1 * 16 ≤ (i 1).val ∧ (i 1).val < win2_4.index t 1 * 16 + 16; omega

/-- After the region the first output holds `adj · S2` of the arrays the region found. -/
theorem final_conv2 (c : Dev nD) : (dat2 V c).arrAt 3 cfg2.N = conv2 (V c main_arg1) (V c main_call0_v2) :=
  (dat2 V c).arrAt_eq_of_cover 3 _ (fun t _ => flushed_conv2 V c t) cover3

/-- After the region the second output holds the class probabilities of the arrays the region found. -/
theorem final_probs (c : Dev nD) :
    (dat2 V c).arrAt 4 cfg2.N = probs (V c main_arg1) (V c main_call0_v2) (V c main_call0_v3) :=
  (dat2 V c).arrAt_eq_of_cover 4 _ (fun t _ => flushed_probs V c t) cover4

end Cert.KernelIdeal.Layer2

end
-- ==== Proof.KChain.lean ====
/-
  From the launch memory to the two results: the three regions and the two conversions composed.

  Write `x`, `adj`, `W1`, `W2`, `W_out` for the five argument arrays as launched. No region and no host operation writes
  an argument, so every region finds `adj` (and the first finds `x` and `W1`) as launched. The two host operations
  convert `W2` and `W_out` to the narrower format, which over the extended reals changes nothing. So the first region
  leaves `S1 = x · W1`, the middle region finds `adj`, `S1`, `W2` and leaves `S2 = leaky (adj · S1) · W2`, and the last
  finds `adj`, `S2`, `W_out` and leaves `adj · S2` and the logistic of `(adj · S2) · W_out` in the two result buffers.
-/
import proofs.«163603_g69458211110958_cont_9to1c4b_477_2_alg».proof.Proof.KRun
import proofs.«163603_g69458211110958_cont_9to1c4b_477_2_alg».proof.Proof.KProj
import proofs.«163603_g69458211110958_cont_9to1c4b_477_2_alg».proof.Proof.KLayer1
import proofs.«163603_g69458211110958_cont_9to1c4b_477_2_alg».proof.Proof.KLayer2
import Idealize.ShloMosaic.Lib.StableHlo.Run

set_option maxRecDepth 16384

noncomputable section

namespace Cert.KernelIdeal.Chain

open Cert.KernelIdeal Cert.KernelIdeal.Gen Cert.Gcn
open Idealize.ShloMosaic Idealize.ShloMosaic.TcCoe Idealize.SL.Sem Idealize.ShloMosaic.StableHlo
open Idealize.ShloMosaic.Pipeline (Dat)

/-! ## The two host conversions, from any contents -/

section
variable (W : Valuation τ sig (Elt Ideal))

/-- Converting `W2` leaves the adjacency matrix alone. -/
theorem cast1_adj : after hostOps1 W (Proc.devRef .tc main_arg1) = W (Proc.devRef .tc main_arg1) := by
  simp only [hostOps1, after_cons, after_nil]; rfl
/-- Converting `W2` leaves the first support alone. -/
theorem cast1_support1 : after hostOps1 W (Proc.devRef .tc main_call0_v0) = W (Proc.devRef .tc main_call0_v0) := by
  simp only [hostOps1, after_cons, after_nil]; rfl
/-- Converting `W2` leaves `W_out` alone. -/
theorem cast1_wout : after hostOps1 W (Proc.devRef .tc main_arg4) = W (Proc.devRef .tc main_arg4) := by
  simp only [hostOps1, after_cons, after_nil]; rfl
/-- The converted second weight matrix is `W2`, entry by entry. -/
theorem cast1_weights :
    (after hostOps1 W (Proc.devRef .tc main_call0_v1) : S32x32.Idx → EReal) = (W (Proc.devRef .tc main_arg3) : S32x32.Idx → EReal) := by
  simp only [hostOps1, after_cons, after_nil]; rfl
/-- Converting `W_out` leaves the adjacency matrix alone. -/
theorem cast2_adj : after hostOps2 W (Proc.devRef .tc main_arg1) = W (Proc.devRef .tc main_arg1) := by
  simp only [hostOps2, after_cons, after_nil]; rfl
/-- Converting `W_out` leaves the second support alone. -/
theorem cast2_support2 : after hostOps2 W (Proc.devRef .tc main_call0_v2) = W (Proc.devRef .tc main_call0_v2) := by
  simp only [hostOps2, after_cons, after_nil]; rfl
/-- The converted output weight matrix is `W_out`, entry by entry. -/
theorem cast2_weights :
    (after hostOps2 W (Proc.devRef .tc main_call0_v3) : S32x16.Idx → EReal) = (W (Proc.devRef .tc main_arg4) : S32x16.Idx → EReal) := by
  simp only [hostOps2, after_cons, after_nil]; rfl
end

variable (m : (ℓ : Loc nD τ sig) → Buf (Elt Ideal) ℓ) (ρ : Dev nD → PrngReg)

/-! ## What the middle region finds -/

/-- The middle region finds the adjacency matrix as launched. -/
theorem entry1_adj (c : Dev nD) : V2 m ρ c main_arg1 = m ((c.tc : Thread nD τ).loc main_arg1) :=
  (cast1_adj (W1 m ρ c)).trans ((W1_of_ne m ρ c main_arg1 (by decide)).trans rfl)

/-- The middle region finds the first support at `x · W1`. -/
theorem entry1_support1 (c : Dev nD) :
    (V2 m ρ c main_call0_v0 : S10000x32.Idx → EReal) = support1 (m ((c.tc : Thread nD τ).loc main_arg0)) (m ((c.tc : Thread nD τ).loc main_arg2)) :=
  (cast1_support1 (W1 m ρ c)).trans ((W1_arr m ρ c 2).trans (Proj.final_support1 (V0 m ρ) c))

/-- The middle region finds the converted second weight matrix at `W2`. -/
theorem entry1_weights (c : Dev nD) : (V2 m ρ c main_call0_v1 : S32x32.Idx → EReal) = m ((c.tc : Thread nD τ).loc main_arg3) :=
  (cast1_weights (W1 m ρ c)).trans ((W1_of_ne m ρ c main_arg3 (by decide)).trans rfl)

/-- After the middle region the adjacency matrix is as launched: the region only reads it. -/
theorem exit1_adj (c : Dev nD) : W3 m ρ c (Proc.devRef .tc main_arg1) = m ((c.tc : Thread nD τ).loc main_arg1) :=
  ((W3_arr m ρ c 0).trans (((dat1 (V2 m ρ) c).arrAt_in 0 rfl _).trans (A_eq1 (V2 m ρ) c 0))).trans (entry1_adj m ρ c)

/-- After the middle region the second support's array holds `leaky (adj · (x · W1)) · W2`. -/
theorem exit1_support2 (c : Dev nD) :
    (W3 m ρ c (Proc.devRef .tc main_call0_v2) : S10000x32.Idx → EReal)
      = support2 (m ((c.tc : Thread nD τ).loc main_arg1)) (support1 (m ((c.tc : Thread nD τ).loc main_arg0)) (m ((c.tc : Thread nD τ).loc main_arg2))) (m ((c.tc : Thread nD τ).loc main_arg3)) :=
  (W3_arr m ρ c 3).trans ((Layer1.final_support2 (V2 m ρ) c).trans (by
    show support2 (V2 m ρ c main_arg1) (V2 m ρ c main_call0_v0) (V2 m ρ c main_call0_v1) = _
    rw [entry1_adj m ρ c, entry1_support1 m ρ c, entry1_weights m ρ c]))

/-- After the middle region `W_out` is as launched: neither it nor anything before it touches it. -/
theorem exit1_wout (c : Dev nD) : W3 m ρ c (Proc.devRef .tc main_arg4) = m ((c.tc : Thread nD τ).loc main_arg4) :=
  (W3_of_ne m ρ c main_arg4 (by decide)).trans ((cast1_wout (W1 m ρ c)).trans ((W1_of_ne m ρ c main_arg4 (by decide)).trans rfl))

/-! ## What the last region finds -/

/-- The last region finds the adjacency matrix as launched. -/
theorem entry2_adj (c : Dev nD) : V4 m ρ c main_arg1 = m ((c.tc : Thread nD τ).loc main_arg1) :=
  (cast2_adj (W3 m ρ c)).trans (exit1_adj m ρ c)

/-- The last region finds the second support. -/
theorem entry2_support2 (c : Dev nD) :
    (V4 m ρ c main_call0_v2 : S10000x32.Idx → EReal)
      = support2 (m ((c.tc : Thread nD τ).loc main_arg1)) (support1 (m ((c.tc : Thread nD τ).loc main_arg0)) (m ((c.tc : Thread nD τ).loc main_arg2))) (m ((c.tc : Thread nD τ).loc main_arg3)) :=
  (cast2_support2 (W3 m ρ c)).trans (exit1_support2 m ρ c)

/-- The last region finds the converted output weight matrix at `W_out`. -/
theorem entry2_weights (c : Dev nD) : (V4 m ρ c main_call0_v3 : S32x16.Idx → EReal) = m ((c.tc : Thread nD τ).loc main_arg4) :=
  (cast2_weights (W3 m ρ c)).trans (exit1_wout m ρ c)

/-! ## The two results -/

/-- The second result buffer ends at `adj · S2`. -/
theorem result_conv2 (c : Dev nD) :
    (W5 m ρ c (Proc.devRef .tc main_v0_1) : S10000x32.Idx → EReal)
      = conv2 (m ((c.tc : Thread nD τ).loc main_arg1))
          (support2 (m ((c.tc : Thread nD τ).loc main_arg1)) (support1 (m ((c.tc : Thread nD τ).loc main_arg0)) (m ((c.tc : Thread nD τ).loc main_arg2))) (m ((c.tc : Thread nD τ).loc main_arg3))) :=
  (W5_arr m ρ c 3).trans ((Layer2.final_conv2 (V4 m ρ) c).trans (by
    show conv2 (V4 m ρ c main_arg1) (V4 m ρ c main_call0_v2) = _
    rw [entry2_adj m ρ c, entry2_support2 m ρ c]))

/-- The first result buffer ends at the class probabilities. -/
theorem result_probs (c : Dev nD) :
    (W5 m ρ c (Proc.devRef .tc main_v0_0) : S10000x16.Idx → EReal)
      = probs (m ((c.tc : Thread nD τ).loc main_arg1))
          (support2 (m ((c.tc : Thread nD τ).loc main_arg1)) (support1 (m ((c.tc : Thread nD τ).loc main_arg0)) (m ((c.tc : Thread nD τ).loc main_arg2))) (m ((c.tc : Thread nD τ).loc main_arg3)))
          (m ((c.tc : Thread nD τ).loc main_arg4)) :=
  (W5_arr m ρ c 4).trans ((Layer2.final_probs (V4 m ρ) c).trans (by
    show probs (V4 m ρ c main_arg1) (V4 m ρ c main_call0_v2) (V4 m ρ c main_call0_v3) = _
    rw [entry2_adj m ρ c, entry2_support2 m ρ c, entry2_weights m ρ c]))

/-! ## The run, read -/

/-- Every weakly fair execution of the idealized kernel ends with its two results at the class probabilities and the
    second convolution of the arguments as launched, and the arguments unchanged. -/
theorem run : θ_run defs (onTc (τ := τ) (main (F := Ideal))) ⟨m, fun _ => 0, ρ⟩ (fun r => ∀ c : Dev nD,
      r.2.mem ((c.tc : Thread nD τ).loc main_v0_0)
        = probs (m ((c.tc : Thread nD τ).loc main_arg1))
            (support2 (m ((c.tc : Thread nD τ).loc main_arg1)) (support1 (m ((c.tc : Thread nD τ).loc main_arg0)) (m ((c.tc : Thread nD τ).loc main_arg2))) (m ((c.tc : Thread nD τ).loc main_arg3)))
            (m ((c.tc : Thread nD τ).loc main_arg4))
      ∧ r.2.mem ((c.tc : Thread nD τ).loc main_v0_1)
        = conv2 (m ((c.tc : Thread nD τ).loc main_arg1))
            (support2 (m ((c.tc : Thread nD τ).loc main_arg1)) (support1 (m ((c.tc : Thread nD τ).loc main_arg0)) (m ((c.tc : Thread nD τ).loc main_arg2))) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
      ⟨(h c).1.trans (result_probs m ρ c), (h c).2.1.trans (result_conv2 m ρ c), (h c).2.2⟩)
    (Run.run_results m ρ)

end Cert.KernelIdeal.Chain

end
-- ==== Proof.RefTerm.lean ====
/-
  The reference's two results as functions of its five argument arrays, written with the reference's own host
  operations and generic in the float instance.

  With h = adj · (x · W1) (two contractions over the shared axis), the hidden activation is the leaky rectifier
  h where 0 ≤ h and c · h elsewhere (c the single-precision word nearest 1/100), the second result is
  x3 = adj · (leaky h · W2), and the first is the logistic 1 / (1 + exp (−(x3 · W_out))), entry by entry.
-/
import proofs.«163603_g69458211110958_cont_9to1c4b_477_2_alg».proof.Proof.Gen.ReferenceIdeal

noncomputable section

namespace Cert.ReferenceIdeal.RefTerm

open Cert.ReferenceIdeal Cert.ReferenceIdeal.Gen Idealize.ShloMosaic Idealize.ShloMosaic.TcCoe

variable {F : FTy → Type} [FloatOps F]

/-- The leaky rectifier on a 10000 × 32 array: an entry stays where it is at least zero and is scaled by the
    slope word elsewhere. -/
def leaky (h : FVec F S10000x32 .f32) : FVec F S10000x32 .f32 :=
  select (cmpf .oge h (broadcastInDim S10000x32 ![] bcast_S_S10000x32 (constant S_ .f32 0x00000000#32))) h
    (mulf (broadcastInDim S10000x32 ![] bcast_S_S10000x32 (id (constant S_ .f32 0x3C23D70A#32))) h)

/-- The first graph convolution before its activation: adj · (x · W1). -/
def hidden (x : FVec F S10000x128 .f32) (adj : FVec F S10000x10000 .f32) (W1 : FVec F S128x32 .f32) :
    FVec F S10000x32 .f32 :=
  Host.dotGeneral dot_S10000x10000_S10000x32_S10000x32_1_0_0_1_n_n none adj
    (Host.dotGeneral dot_S10000x128_S128x32_S10000x32_1_0_0_1_n_n none x W1)

/-- The second graph convolution: adj · (leaky (adj · (x · W1)) · W2). It is the program's second result. -/
def x3 (x : FVec F S10000x128 .f32) (adj : FVec F S10000x10000 .f32) (W1 : FVec F S128x32 .f32)
    (W2 : FVec F S32x32 .f32) : FVec F S10000x32 .f32 :=
  Host.dotGeneral dot_S10000x10000_S10000x32_S10000x32_1_0_0_1_n_n none adj
    (Host.dotGeneral dot_S10000x32_S32x32_S10000x32_1_0_0_1_n_n none (leaky (hidden x adj W1)) W2)

/-- The logistic of a 10000 × 16 array of logits, spelt as the quotient 1 / (1 + exp (−z)). -/
def sigmoid (z : FVec F S10000x16 .f32) : FVec F S10000x16 .f32 :=
  Host.divf (broadcastInDim S10000x16 ![] bcast_S_S10000x16 (constant S_ .f32 0x3F800000#32))
    (addf (broadcastInDim S10000x16 ![] bcast_S_S10000x16 (constant S_ .f32 0x3F800000#32)) (Host.exp (Host.negf z)))

/-- The program's first result: the logistic of x3 · W_out. -/
def y (x : FVec F S10000x128 .f32) (adj : FVec F S10000x10000 .f32) (W1 : FVec F S128x32 .f32)
    (W2 : FVec F S32x32 .f32) (Wout : FVec F S32x16 .f32) : FVec F S10000x16 .f32 :=
  sigmoid (Host.dotGeneral dot_S10000x32_S32x16_S10000x16_1_0_0_1_n_n none (x3 x adj W1 W2) Wout)

end Cert.ReferenceIdeal.RefTerm

end
-- ==== Proof.RefRun.lean ====
/-
  Every execution of the reference program ends with its two results at fixed functions of its five argument
  arrays, and with the arguments unchanged.

  The program is a straight line of twenty-one host operations once its two calls are replaced by their bodies:
  the leaky rectifier's six operations and the select of the function it calls in turn, each writing the buffer
  the call names for it. The contents of a buffer after the line is the fold of the operations' results over the
  launch contents; read at a result buffer it is the composition of the operations' functions, which is the
  term RefTerm.y (the logistic of x3 · W_out) at the first result and RefTerm.x3 (adj · (leaky (adj · (x · W1)) · W2))
  at the second. No operation writes an argument buffer.
-/
import proofs.«163603_g69458211110958_cont_9to1c4b_477_2_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's twenty-one operations, in order: the two contractions giving adj · (x · W1) and the slope
    constant; the rectifier's comparison with zero, the slope's broadcast, the product and the select between
    the entry and its scaled value; the two contractions giving the second result; the contraction with W_out
    and the logistic 1 / (1 + exp (−z)) giving the first. -/
abbrev ops : List (HloOp τ sig (Elt F)) :=
  [ binary main_arg0 main_arg2 main_v0 ((fun l r => Host.dotGeneral dot_S10000x128_S128x32_S10000x32_1_0_0_1_n_n none l r) : (⟨S10000x128, .f32⟩ : BufTy).Contents (Elt F) → (⟨S128x32, .f32⟩ : BufTy).Contents (Elt F) → (⟨S10000x32, .f32⟩ : BufTy).Contents (Elt F)),
    binary main_arg1 main_v0 main_v1 ((fun l r => Host.dotGeneral dot_S10000x10000_S10000x32_S10000x32_1_0_0_1_n_n none l r) : (⟨S10000x10000, .f32⟩ : BufTy).Contents (Elt F) → (⟨S10000x32, .f32⟩ : BufTy).Contents (Elt F) → (⟨S10000x32, .f32⟩ : BufTy).Contents (Elt F)),
    nullary main_cst (constant S_ .f32 0x3C23D70A#32),
    TRef.nullary main_call0.cst (constant S_ .f32 0x00000000#32),
    TRef.unary main_call0.cst main_call0.v0 (broadcastInDim S10000x32 ![] bcast_S_S10000x32),
    TRef.binary (.of main_v1) main_call0.v0 main_call0.v1 (cmpf .oge),
    TRef.unary (.of main_cst) main_call0.v2 id,
    TRef.unary main_call0.v2 main_call0.v3 (broadcastInDim S10000x32 ![] bcast_S_S10000x32),
    TRef.binary main_call0.v3 (.of main_v1) main_call0.v4 mulf,
    TRef.ternary main_call0.v1 (.of main_v1) main_call0.v4 main_call0.call0.v0 select,
    binary main_v2 main_arg3 main_v3 ((fun l r => Host.dotGeneral dot_S10000x32_S32x32_S10000x32_1_0_0_1_n_n none l r) : (⟨S10000x32, .f32⟩ : BufTy).Contents (Elt F) → (⟨S32x32, .f32⟩ : BufTy).Contents (Elt F) → (⟨S10000x32, .f32⟩ : BufTy).Contents (Elt F)),
    binary main_arg1 main_v3 main_v4 ((fun l r => Host.dotGeneral dot_S10000x10000_S10000x32_S10000x32_1_0_0_1_n_n none l r) : (⟨S10000x10000, .f32⟩ : BufTy).Contents (Elt F) → (⟨S10000x32, .f32⟩ : BufTy).Contents (Elt F) → (⟨S10000x32, .f32⟩ : BufTy).Contents (Elt F)),
    binary main_v4 main_arg4 main_v5 ((fun l r => Host.dotGeneral dot_S10000x32_S32x16_S10000x16_1_0_0_1_n_n none l r) : (⟨S10000x32, .f32⟩ : BufTy).Contents (Elt F) → (⟨S32x16, .f32⟩ : BufTy).Contents (Elt F) → (⟨S10000x16, .f32⟩ : BufTy).Contents (Elt F)),
    unary main_v5 main_v6 (Host.negf : (⟨S10000x16, .f32⟩ : BufTy).Contents (Elt F) → (⟨S10000x16, .f32⟩ : BufTy).Contents (Elt F)),
    unary main_v6 main_v7 (Host.exp : (⟨S10000x16, .f32⟩ : BufTy).Contents (Elt F) → (⟨S10000x16, .f32⟩ : BufTy).Contents (Elt F)),
    nullary main_cst_0 (constant S_ .f32 0x3F800000#32),
    unary main_cst_0 main_v8 (broadcastInDim S10000x16 ![] bcast_S_S10000x16 : (⟨S_, .f32⟩ : BufTy).Contents (Elt F) → (⟨S10000x16, .f32⟩ : BufTy).Contents (Elt F)),
    binary main_v8 main_v7 main_v9 (addf : (⟨S10000x16, .f32⟩ : BufTy).Contents (Elt F) → (⟨S10000x16, .f32⟩ : BufTy).Contents (Elt F) → (⟨S10000x16, .f32⟩ : BufTy).Contents (Elt F)),
    nullary main_cst_1 (constant S_ .f32 0x3F800000#32),
    unary main_cst_1 main_v10 (broadcastInDim S10000x16 ![] bcast_S_S10000x16 : (⟨S_, .f32⟩ : BufTy).Contents (Elt F) → (⟨S10000x16, .f32⟩ : BufTy).Contents (Elt F)),
    binary main_v10 main_v9 main_v11 (Host.divf : (⟨S10000x16, .f32⟩ : BufTy).Contents (Elt F) → (⟨S10000x16, .f32⟩ : BufTy).Contents (Elt F) → (⟨S10000x16, .f32⟩ : BufTy).Contents (Elt F)) ]

set_option maxRecDepth 1024 in
/-- The program is that straight line: the two functions' definitions unfolded at their calls, both sides are one
    chain of steps once sequencing is reassociated. -/
theorem main_eq (c : Dev nD) : main (F := F) c = seq ops := by
  simp only [main, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation reads and writes TensorCore buffers only. -/
theorem ops_sub : (ops : List (HloOp τ sig (Elt F))).Forall fun op => op.bufs ⊆ tcRefs τ sig :=
  ⟨binary_bufs_sub .., binary_bufs_sub .., nullary_bufs_sub ..,
    nullary_bufs_sub .., unary_bufs_sub .., binary_bufs_sub .., unary_bufs_sub .., unary_bufs_sub .., binary_bufs_sub ..,
    ternary_bufs_sub ..,
    binary_bufs_sub .., binary_bufs_sub .., binary_bufs_sub .., unary_bufs_sub .., unary_bufs_sub .., nullary_bufs_sub ..,
    unary_bufs_sub .., binary_bufs_sub .., nullary_bufs_sub .., unary_bufs_sub .., binary_bufs_sub ..⟩

/-- The fold read at the first result's buffer is RefTerm.y of the arguments' contents: the fold unrolled, each
    operation's result decides whether the buffer read is the one it writes, and the typed references' transports
    are the identity at these literal references, so both sides are the same composition of the operations'
    functions. -/
theorem v11_eq (V : Valuation τ sig (Elt F)) :
    after ops V (main_v11 : DevRef τ sig)
      = RefTerm.y (V (main_arg0 : DevRef τ sig)) (V (main_arg1 : DevRef τ sig)) (V (main_arg2 : DevRef τ sig)) (V (main_arg3 : DevRef τ sig)) (V (main_arg4 : DevRef τ sig)) := by
  simp only [after_cons, after_nil]
  rfl

/-- The fold read at the second result's buffer is RefTerm.x3 of the arguments' contents, likewise. -/
theorem v4_eq (V : Valuation τ sig (Elt F)) :
    after ops V (main_v4 : DevRef τ sig)
      = RefTerm.x3 (V (main_arg0 : DevRef τ sig)) (V (main_arg1 : DevRef τ sig)) (V (main_arg2 : DevRef τ sig)) (V (main_arg3 : DevRef τ sig)) := by
  simp only [after_cons, after_nil]
  rfl

/-! No operation writes an argument's buffer: the fold read there is what was there. -/

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

theorem arg3_eq (V : Valuation τ sig (Elt F)) :
    after ops V (main_arg3 : DevRef τ sig) = V (main_arg3 : DevRef τ sig) := by
  simp only [after_cons, after_nil]
  rfl

theorem arg4_eq (V : Valuation τ sig (Elt F)) :
    after ops V (main_arg4 : DevRef τ sig) = V (main_arg4 : DevRef τ sig) := by
  simp only [after_cons, after_nil]
  rfl

/-- On every device, for any float values, from any memory with zero counters: every weakly fair execution of the
    program terminates with the first result at RefTerm.y of the arguments, the second at RefTerm.x3 of them, and
    the five arguments unchanged. -/
theorem run {F : FTy → Type} [FloatOps F] (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v11) = RefTerm.y (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v4) = RefTerm.x3 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v11).trans (v11_eq _),
      (h c main_v4).trans (v4_eq _),
      (h c main_arg0).trans (arg0_eq _),
      (h c main_arg1).trans (arg1_eq _),
      (h c main_arg2).trans (arg2_eq _),
      (h c main_arg3).trans (arg3_eq _),
      (h c main_arg4).trans (arg4_eq _)⟩)
    (run_seq scopedRefs_eq scopedSems_eq defs main (fun _ => ops) main_eq (fun _ => ops_sub) m ρ)

end Cert.ReferenceIdeal.RefRun

end
-- ==== Proof.RefBridge.lean ====
/-
  The reference's two results, written with its own host operations, are the graph network's stages as whole-array
  functions over the extended reals.

  Both sides are the same expression tree; three spellings differ.
  * The dimension numbers of each contraction: the reference's printed record and the record of the product
    [M, N] · [N, Q] → [M, Q] have the same six axis lists; only the proofs of well-formedness they carry differ, and
    two proofs of one proposition are equal.
  * The leaky rectifier: the reference compares the whole array with a broadcast zero, multiplies it by the broadcast
    slope word and selects; a broadcast constant read at any index is the constant's word, so entry by entry that is
    the scalar rectifier.
  * The logistic: the reference writes the quotient 1 / (1 + exp (−z)) with the ones as broadcast words; entry by
    entry that quotient is the logistic function.
-/
import proofs.«163603_g69458211110958_cont_9to1c4b_477_2_alg».proof.Proof.RefTerm
import proofs.«163603_g69458211110958_cont_9to1c4b_477_2_alg».proof.Proof.KSpec

noncomputable section

namespace Cert.ReferenceIdeal.RefBridge

open Cert.ReferenceIdeal Cert.ReferenceIdeal.Gen Idealize.ShloMosaic Idealize.ShloMosaic.TcCoe
open Idealize.ShloMosaic.ValueIdx Idealize.ShloMosaic.DenseBlock

/-! ## The dimension numbers -/

/-- [10000, 128] · [128, 32]: the printed record is the product's. -/
theorem dot_x_w1 : dot_S10000x128_S128x32_S10000x32_1_0_0_1_n_n = mmDims 10000 128 32 Cert.Gcn.wf_x_w1 := rfl

/-- [10000, 10000] · [10000, 32]: the printed record is the product's. -/
theorem dot_adj_s : dot_S10000x10000_S10000x32_S10000x32_1_0_0_1_n_n = mmDims 10000 10000 32 Cert.Gcn.wf_adj_s := rfl

/-- [10000, 32] · [32, 32]: the printed record is the product's. -/
theorem dot_h_w2 : dot_S10000x32_S32x32_S10000x32_1_0_0_1_n_n = mmDims 10000 32 32 Cert.Gcn.wf_h_w2 := rfl

/-- [10000, 32] · [32, 16]: the printed record is the product's. -/
theorem dot_x3_wout : dot_S10000x32_S32x16_S10000x16_1_0_0_1_n_n = mmDims 10000 32 16 Cert.Gcn.wf_x3_wout := rfl

/-! ## The rectifier and the logistic, entry by entry -/

/-- The reference's leaky rectifier is the scalar one at every entry: the two broadcast constants read their words
    at any index, and comparison, product and select act entry by entry. -/
theorem leaky_eq (h : FVec Ideal S10000x32 .f32) :
    RefTerm.leaky (F := Ideal) h = fun i => Cert.Gcn.leakyS (h i) :=
  funext fun _ => rfl

/-- The reference's quotient 1 / (1 + exp (−z)) is the logistic function at every entry. -/
theorem sigmoid_eq (z : FVec Ideal S10000x16 .f32) :
    RefTerm.sigmoid (F := Ideal) z = fun i => FloatOps.logistic (F := Ideal) (φ := .f32) (z i) :=
  funext fun i => (Cert.RowBlock.logistic_eq_quotient (z i)).symm

/-! ## The two results -/

/-- The reference's second result adj · (leaky (adj · (x · W1)) · W2) is the second convolution of the second
    support of the first. -/
theorem x3_eq (x : FVec Ideal S10000x128 .f32) (adj : FVec Ideal S10000x10000 .f32) (W1 : FVec Ideal S128x32 .f32) (W2 : FVec Ideal S32x32 .f32) :
    RefTerm.x3 (F := Ideal) x adj W1 W2 = Cert.Gcn.conv2 adj (Cert.Gcn.support2 adj (Cert.Gcn.support1 x W1) W2) := by
  unfold RefTerm.x3 RefTerm.hidden
  rw [leaky_eq, dot_x_w1, dot_adj_s, dot_h_w2]
  rfl

/-- The reference's first result, the logistic of x3 · W_out, is the class probabilities of the same stages. -/
theorem y_eq (x : FVec Ideal S10000x128 .f32) (adj : FVec Ideal S10000x10000 .f32) (W1 : FVec Ideal S128x32 .f32) (W2 : FVec Ideal S32x32 .f32) (Wout : FVec Ideal S32x16 .f32) :
    RefTerm.y (F := Ideal) x adj W1 W2 Wout = Cert.Gcn.probs adj (Cert.Gcn.support2 adj (Cert.Gcn.support1 x W1) W2) Wout := by
  unfold RefTerm.y
  rw [sigmoid_eq, x3_eq, dot_x3_wout]
  rfl

end Cert.ReferenceIdeal.RefBridge

end
-- ==== Proof.lean ====
/-
  A two-layer graph convolutional network, a row-blocked kernel against its plain reference, over the extended reals.

  Both programs compute, from node features `x`, a dense adjacency matrix `adj` and three weight matrices,
      h  = adj · (x · W1),        x1 = leaky h,        x3 = adj · (x1 · W2),        Y = logistic (x3 · W_out),
  and return `(Y, x3)`. The reference forms each product whole. The kernel forms `x · W1` whole in a first region, and
  in two further regions streams `adj` in 25 blocks of 400 rows, fusing the leaky rectifier and the product with `W2`
  into the first pass and the product with `W_out` and the logistic into the second; between the regions it converts
  `W2` and `W_out` to a narrower format. Over the extended reals a change of format is the identity, a product into a
  zero accumulator is the plain sum `Σ n, L (k, n) * r (n, q)` and so is the host's contraction, and the logistic is
  `1 / (1 + exp (−z))` in either spelling; a block of rows of a product is the product of that block of rows, the
  leaky rectifier and the logistic act entry by entry, and the 25 blocks tile the rows. So the two programs' results
  are one function of the arguments, entry by entry, and no property of the inputs is used.

  * `Proof/KSpec.lean`: that function, stage by stage; `Proof/RowBlockMath.lean`: the block-of-rows law and the logistic.
  * `Proof/KProj.lean`, `Proof/KLayer1.lean`, `Proof/KLayer2.lean`: what each region leaves in its output arrays, from what
    it finds; `Proof/KRun.lean`, `Proof/KChain.lean`: the kernel's run and the three regions composed.
  * `Proof/RefTerm.lean`, `Proof/RefRun.lean`, `Proof/RefBridge.lean`: the reference's results as terms of its operations,
    its run, and those terms as the same function.
  The idealization rewrote no operation, so it preserves the kernel trivially.
-/
import proofs.«163603_g69458211110958_cont_9to1c4b_477_2_alg».proof.Defs
import proofs.«163603_g69458211110958_cont_9to1c4b_477_2_alg».proof.Proof.Gen.Kernel
import proofs.«163603_g69458211110958_cont_9to1c4b_477_2_alg».proof.Proof.Gen.Kernel.Frame
import proofs.«163603_g69458211110958_cont_9to1c4b_477_2_alg».proof.Proof.Gen.KernelIdeal
import proofs.«163603_g69458211110958_cont_9to1c4b_477_2_alg».proof.Proof.Gen.KernelIdeal.Frame
import proofs.«163603_g69458211110958_cont_9to1c4b_477_2_alg».proof.Proof.Gen.ReferenceIdeal
import proofs.«163603_g69458211110958_cont_9to1c4b_477_2_alg».proof.Proof.Gen.Pre_finite_inputs
import proofs.«163603_g69458211110958_cont_9to1c4b_477_2_alg».proof.Proof.KChain
import proofs.«163603_g69458211110958_cont_9to1c4b_477_2_alg».proof.Proof.RefRun
import proofs.«163603_g69458211110958_cont_9to1c4b_477_2_alg».proof.Proof.RefBridge
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The reference runs and leaves its arguments unchanged: its run with the results dropped. -/
theorem frame_reference : Cert.frame_ReferenceIdeal := fun m ρ _ =>
  (θ_run Cert.ReferenceIdeal.defs _ _).mono (fun _ h c => (h c).2.2) (Cert.ReferenceIdeal.RefRun.run (F := Ideal) m ρ)

/-- The idealization rewrote nothing. -/
theorem preserves : Cert.preserves_Kernel_KernelIdeal := trivial

/-- From memories agreeing on the arguments, the idealized kernel ends with its results at the class probabilities and
    the second convolution of the arguments, and the reference ends with its results at its own terms of the same
    arguments, which are those functions. -/
theorem algebraic : Cert.algebraic_KernelIdeal_ReferenceIdeal := by
  intro m ρ m' ρ' _ hagree
  refine ⟨_, _, Cert.KernelIdeal.Chain.run m ρ, ?_⟩
  refine (θ_run Cert.ReferenceIdeal.defs _ _).mono (fun _ h c => ?_) (Cert.ReferenceIdeal.RefRun.run (F := Ideal) m' ρ')
  obtain ⟨a0, a1, a2, a3, a4⟩ := hagree c
  refine ⟨(h c).1.trans ?_, (h c).2.1.trans ?_, (h c).2.2⟩
  · rw [a0, a1, a2, a3, a4]
    exact Cert.ReferenceIdeal.RefBridge.y_eq _ _ _ _ _
  · rw [a0, a1, a2, a3]
    exact Cert.ReferenceIdeal.RefBridge.x3_eq _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
